-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S3300000x64 : Shape := ⟨2, ![3300000, 64]⟩
abbrev S1x64 : Shape := ⟨2, ![1, 64]⟩
abbrev S1x1 : Shape := ⟨2, ![1, 1]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x64, .f32⟩
  | .hbm, ⟨38, _⟩ => ⟨S_, .f32⟩
  | .hbm, ⟨39, _⟩ => ⟨S100000x64, .f32⟩
  | .hbm, ⟨40, _⟩ => ⟨S3300000x1, .i32⟩
  | .hbm, ⟨41, _⟩ => ⟨S100000x64, .f32⟩
  | .hbm, ⟨42, _⟩ => ⟨S1x64, .f32⟩
  | .hbm, ⟨43, _⟩ => ⟨S100000x1, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x1, .f32⟩
  | .hbm, ⟨53, _⟩ => ⟨S_, .f32⟩
  | .hbm, ⟨54, _⟩ => ⟨S100000x1, .f32⟩
  | .hbm, ⟨55, _⟩ => ⟨S3300000x1, .i32⟩
  | .hbm, ⟨56, _⟩ => ⟨S100000x1, .f32⟩
  | .hbm, ⟨57, _⟩ => ⟨S1x1, .f32⟩
  | .hbm, ⟨58, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x1, .f32⟩
  | .local _ .vmem, ⟨13, _⟩ => ⟨S4000x1, .f32⟩
  | .local _ .vmem, ⟨14, _⟩ => ⟨S4000x1, .f32⟩
  | .local _ .vmem, ⟨15, _⟩ => ⟨S4000x1, .f32⟩
  | .local _ .vmem, ⟨16, _⟩ => ⟨S4000x1, .f32⟩
  | .local _ .vmem, ⟨17, _⟩ => ⟨S4000x1, .f32⟩
  | .local _ .vmem, ⟨18, _⟩ => ⟨S4000x1, .f32⟩
  | .local _ .vmem, ⟨19, _⟩ => ⟨S1x1, .f32⟩
  | .local _ .vmem, ⟨20, _⟩ => ⟨S4000x1, .f32⟩
  | .local _ .vmem, ⟨21, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S3300000x1_S3300000_n_0_0_1_wf : ScatterDims.WF S100000 S3300000x1 S3300000 [] [0] [0] 1
  dot_S4000x128_S128x64_S4000x64_1_0_0_1_n_n_wf : DotDims.WF S4000x128 S128x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x1_S4000x1_1_0_0_1_n_n_wf : DotDims.WF S4000x64 S64x1 S4000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x1.size a ≤ S100000x1.size a
  hwx2_0 : ∀ i : grid2.Coords, EltTy.bits .f32 = 32 ∨ (Rect.block (s := S100000x1) S4000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S100000x1.size a
  hwx2_3 : ∀ i : grid2.Coords, EltTy.bits .f32 = 32 ∨ (Rect.block (s := S100000x1) S4000x1.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S4000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S4000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S4000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x1, .f32⟩
  | .hbm, ⟨79, _⟩ => ⟨S3300000x1, .f32⟩
  | .hbm, ⟨80, _⟩ => ⟨S3300000x1, .f32⟩
  | .hbm, ⟨81, _⟩ => ⟨S_, .f32⟩
  | .hbm, ⟨82, _⟩ => ⟨S100000x1, .f32⟩
  | .hbm, ⟨83, _⟩ => ⟨S3300000x1, .i32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S_, .f32⟩
  | .hbm, ⟨94, _⟩ => ⟨S100000x1, .f32⟩
  | .hbm, ⟨95, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel's run with its result named. `main` is eight segments — three stretches of host operations
  (the edge lists, the degrees, `dinv`), then three pallas_call regions with a stretch of host operations (a gather
  by `col` and a sum into `row`) before the second and the third. The buffer contents at the segment boundaries are
  the fold `W0 … W8` of the generated frame; the launch theorem for a program of several regions ends every weakly
  fair execution with each unscoped buffer at `W8`. Read at the result buffer this is the run's value; read at the
  arguments it is the frame.
-/
import proofs.«100186_j29197187678384_2_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of `main` terminates, nothing faulting; the
    result buffer ends at the last region's exit contents `W8`, and the six arguments end as launched. -/
theorem run_result : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.HandRun

end
-- ==== Proof.RegionValue0.lean ====
/- Region 0 of the idealized kernel, read as one whole-array function of the arrays the region finds.
   The region walks 25 row blocks of 4000 rows. At each block the body multiplies the block of `x` (4000 × 128) by the
   whole of `w` (128 × 64) into a zero accumulator and scales row `p` of the product by entry `p` of the block of the
   column `dinv`; on the extended reals the rounding of the operands to bf16 is the identity. So entry `(r, n)` of the
   result array is `(∑ k, x (r, k) · w (k, n)) · dinv (r, 0)`: first the stored value at an entry of a block, then the
   blocks as rows of the arrays, then the 25 row blocks covering the array (row `r` lies in block `r / 4000`). -/
import proofs.«100186_j29197187678384_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-! ## Region 0: the rows of `x · W1`, each scaled by its row's entry of the column `dinv` -/

/-- The whole-array result of region 0 as one function of the three arrays the region reads: entry `(r, n)` is the
    inner product of row `r` of `x` with column `n` of `w`, times entry `r` of the column `dinv`. -/
abbrev G0 (x : S100000x128.Idx → EReal) (w : S128x64.Idx → EReal) (dinv : S100000x1.Idx → EReal) : S100000x64.Idx → EReal :=
  fun i => (∑ k : Fin 128, x (ix2 (i 0) k) * w (ix2 k (i 1))) * dinv (ix2 (i 0) 0)

theorem hz0 : (![0, 0] : Fin 2 → Nat) = fun _ => 0 := funext fun a => by fin_cases a <;> rfl

/-- A column `[a, 1]` broadcast to `[a, b]` reads, at `(p, q)`, the column's entry `p`. -/
theorem broadcastTo_col0_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The left operand's index of the product at output `i`: row `i 0` on the kept axis. -/
theorem lhs0_0 (i : S4000x64.Idx) (k : dot_S4000x128_S128x64_S4000x64_1_0_0_1_n_n.contr.Idx) :
    (dot_S4000x128_S128x64_S4000x64_1_0_0_1_n_n.lhsIdx i k 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- The right operand's index of the product at output `i`: column `i 1` on the kept axis. -/
theorem rhs0_1 (i : S4000x64.Idx) (k : dot_S4000x128_S128x64_S4000x64_1_0_0_1_n_n.contr.Idx) :
    (dot_S4000x128_S128x64_S4000x64_1_0_0_1_n_n.rhsIdx i k 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The block product into the zero accumulator, read at `(p, q)`: the sum over the contracted coordinate of the
    products of the two operands' entries. -/
theorem matmul0_apply (l : FVec Ideal S4000x128 .bf16) (r : FVec Ideal S128x64 .bf16) (p : Fin 4000) (q : Fin 64) :
    matmul dot_S4000x128_S128x64_S4000x64_1_0_0_1_n_n none l r (constant S4000x64 .f32 0x00000000#32) (ix2 p q)
      = ∑ k : Fin 128, l (ix2 p k) * r (ix2 k q) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhs0_0 _ _
    | ⟨1, _⟩ => exact (dot_S4000x128_S128x64_S4000x64_1_0_0_1_n_n.lhsIdx_val_of_single rfl _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (dot_S4000x128_S128x64_S4000x64_1_0_0_1_n_n.rhsIdx_val_of_single rfl _ _).trans hk
    | ⟨1, _⟩ => exact rhs0_1 _ _)
  rw [el, er]

/-- The body's stored value at `(p, q)` of its block, from the three loaded blocks: the rounding to bf16 is the
    identity on the extended reals, the accumulator is zero. -/
theorem pay0_apply (x0 : Vec Ideal S4000x128 .f32) (x1 : Vec Ideal S128x64 .f32) (x2 : Vec Ideal S4000x1 .f32) (p : Fin 4000) (q : Fin 64) :
    k0_pay1 (F := Ideal) x0 x1 x2 (ix2 p q) = (∑ k : Fin 128, x0 (ix2 p k) * x1 (ix2 k q)) * x2 (ix2 p (0 : Fin 1)) := by
  unfold k0_pay1
  have hm := matmul0_apply (truncf .bf16 x0 bitsLt_bf16_f32) (truncf .bf16 x1 bitsLt_bf16_f32) p q
  have hb : broadcastTo S4000x64 (shapeCast S4000x1 x2 shapeCasts_S4000x1_S4000x1) broadcasts_S4000x1_S4000x64 (ix2 p q) = x2 (ix2 p (0 : Fin 1)) := by
    rw [broadcastTo_col0_apply, shapeCast_self]
  exact congrArg₂ (· * ·) hm hb

/-- What the body leaves in the output's staging buffer, at `(p, q)`. -/
theorem out0_apply (x0 : Vec Ideal S4000x128 .f32) (x1 : Vec Ideal S128x64 .f32) (x2 : Vec Ideal S4000x1 .f32) (p : Fin 4000) (q : Fin 64) :
    out0_3 (F := Ideal) x0 x1 x2 (ix2 p q) = (∑ k : Fin 128, x0 (ix2 p k) * x1 (ix2 k q)) * x2 (ix2 p (0 : Fin 1)) := by
  unfold out0_3
  rw [View.canon_unit_zero hz0]
  simp only [View.ld_unit_zero (S := S4000x128) hz0, View.ld_unit_zero (S := S128x64) hz0, View.ld_unit_zero (S := S4000x1) hz0]
  exact pay0_apply x0 x1 x2 p q

variable (V : (c : Dev nD) → (b : Ref sig .tc) → Buf (Elt Ideal) ((c : Thread nD τ).loc b)) (c : Dev nD)

/-- The windows' index maps over the grid: at point `t` the windows of `x`, of the column `dinv` and of the result are
    at row block `t`, the window of `w` is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of `x` at point `t` is rows `4000 t … 4000 t + 3999` of the array. -/
theorem iblk0_0_apply (t : Fin cfg0.N) (p : Fin 4000) (k : Fin 128) (hp : 4000 * t.val + p.val < 100000) :
    (iblk0 V c 0 t : Vec Ideal S4000x128 .f32) (ix2 p k) = (V c main_arg0 : S100000x128.Idx → EReal) (ix2 ⟨4000 * t.val + p.val, hp⟩ k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 4000 + 1 * p.val = 4000 * t.val + p.val; rw [e0]; omega
  | ⟨1, _⟩ => show win0_0.index t (1 : Fin 2) * 128 + 1 * k.val = k.val; rw [e1]; omega

/-- The block of `w` at every point is the whole array. -/
theorem iblk0_1_apply (t : Fin cfg0.N) (k : Fin 128) (q : Fin 64) :
    (iblk0 V c 1 t : Vec Ideal S128x64 .f32) (ix2 k q) = (V c main_arg2 : S128x64.Idx → EReal) (ix2 k q) := by
  obtain ⟨-, -, e0, e1, -⟩ := idx_facts0 t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- The block of the column `dinv` at point `t` is its rows `4000 t … 4000 t + 3999`. -/
theorem iblk0_2_apply (t : Fin cfg0.N) (p : Fin 4000) (hp : 4000 * t.val + p.val < 100000) :
    (iblk0 V c 2 t : Vec Ideal S4000x1 .f32) (ix2 p (0 : Fin 1)) = (V c main_v15 : S100000x1.Idx → EReal) (ix2 ⟨4000 * t.val + p.val, hp⟩ (0 : Fin 1)) := by
  obtain ⟨-, -, -, -, e0, e1, -⟩ := idx_facts0 t
  unfold iblk0
  rw [View.read_apply]
  show V c main_v15 _ = V c main_v15 _
  refine congrArg (V c main_v15) (funext fun a => Fin.ext ?_)
  match a with
  | ⟨0, _⟩ => show win0_2.index t (0 : Fin 2) * 4000 + 1 * p.val = 4000 * t.val + p.val; rw [e0]; omega
  | ⟨1, _⟩ => show win0_2.index t (1 : Fin 2) * 1 + 1 * 0 = 0; rw [e1]

/-- From the blocks to the array, at one entry: if the three loaded blocks are those rows of the arrays, the body's
    result at `(p, q)` is `G0` of the arrays at row `4000 T + p`, column `q`. -/
theorem out0_eq_G0 (x0 : Vec Ideal S4000x128 .f32) (x1 : Vec Ideal S128x64 .f32) (x2 : Vec Ideal S4000x1 .f32)
    (A0 : S100000x128.Idx → EReal) (A1 : S128x64.Idx → EReal) (A2 : S100000x1.Idx → EReal) (T : ℕ) (p : Fin 4000) (q : Fin 64)
    (hp : 4000 * T + p.val < 100000)
    (h0 : ∀ k : Fin 128, x0 (ix2 p k) = A0 (ix2 ⟨4000 * T + p.val, hp⟩ k))
    (h1 : ∀ k : Fin 128, x1 (ix2 k q) = A1 (ix2 k q))
    (h2 : x2 (ix2 p (0 : Fin 1)) = A2 (ix2 ⟨4000 * T + p.val, hp⟩ (0 : Fin 1))) :
    out0_3 (F := Ideal) x0 x1 x2 (ix2 p q) = G0 A0 A1 A2 (ix2 ⟨4000 * T + p.val, hp⟩ q) := by
  rw [out0_apply, h2]
  show _ = (∑ k : Fin 128, A0 (ix2 ⟨4000 * T + p.val, hp⟩ k) * A1 (ix2 k q)) * A2 (ix2 ⟨4000 * T + p.val, hp⟩ (0 : Fin 1))
  exact congrArg (· * _) (Finset.sum_congr rfl fun k _ => by rw [h0 k, h1 k])

/-- WHAT POINT `t` WRITES BACK is block `t` of `G0` of the arrays as the region finds them. -/
theorem flushed0_eq (t : Fin cfg0.N) :
    (dat0 (F := Ideal) V c).flushed 3 t
      = ((cfg0.win 3).blk t).view.read (Elt Ideal) (G0 (V c main_arg0) (V c main_arg2) (V c main_v15)) := by
  show (cfg0.win 3).cut (grid0.coords t) ((dat0 V c).after 3 t) = _
  rw [after0_3]
  obtain ⟨-, -, -, -, -, -, e0, e1⟩ := idx_facts0 t
  have ht : t.val < 25 := lt_of_lt_of_eq t.isLt N_0
  funext j
  have hp : (j 0).val < 4000 := (j 0).isLt
  have hq : (j 1).val < 64 := (j 1).isLt
  have hP : 4000 * t.val + (j 0).val < 100000 := by omega
  have hj : j = ix2 (⟨(j 0).val, hp⟩ : Fin 4000) (⟨(j 1).val, hq⟩ : Fin 64) :=
    funext fun a => Fin.ext (by match a with | ⟨0, _⟩ => rfl | ⟨1, _⟩ => rfl)
  have he : ((cfg0.win 3).blk t).view.emb j = ix2 (⟨4000 * t.val + (j 0).val, hP⟩ : Fin 100000) (⟨(j 1).val, hq⟩ : Fin 64) :=
    funext fun a => Fin.ext (by
      match a with
      | ⟨0, _⟩ => show win0_3.index t (0 : Fin 2) * 4000 + 1 * (j 0).val = 4000 * t.val + (j 0).val; rw [e0]; omega
      | ⟨1, _⟩ => show win0_3.index t (1 : Fin 2) * 64 + 1 * (j 1).val = (j 1).val; rw [e1]; omega)
  show out0_3 (F := Ideal) (iblk0 V c 0 t) (iblk0 V c 1 t) (iblk0 V c 2 t) j
      = G0 (V c main_arg0) (V c main_arg2) (V c main_v15) (((cfg0.win 3).blk t).view.emb j)
  refine (congrArg (out0_3 (F := Ideal) (iblk0 V c 0 t) (iblk0 V c 1 t) (iblk0 V c 2 t)) hj).trans ?_
  refine (out0_eq_G0 (iblk0 V c 0 t) (iblk0 V c 1 t) (iblk0 V c 2 t) (V c main_arg0) (V c main_arg2) (V c main_v15) t.val
    ⟨(j 0).val, hp⟩ ⟨(j 1).val, hq⟩ hP (fun k => iblk0_0_apply V c t ⟨(j 0).val, hp⟩ k hP) (fun k => iblk0_1_apply V c t k ⟨(j 1).val, hq⟩)
    (iblk0_2_apply V c t ⟨(j 0).val, hp⟩ hP)).trans ?_
  exact congrArg (G0 (V c main_arg0) (V c main_arg2) (V c main_v15)) he.symm

/-- An index of the result array is in point `t`'s block iff each coordinate is in the block's range on its axis. -/
theorem mem_blk0 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v16).slice (win0_3.rect t)).set ↔ _
  rw [View.set_slice_whole, Rect.mem_set_unit]
  exact Iff.rfl

/-- Every row block of the result is some point's: block `b` is point `b`'s. -/
theorem idx_onto0 : ∀ b : Fin 25, ∃ t : Fin cfg0.N, win0_3.index t (0 : Fin 2) = b.val ∧ win0_3.index t (1 : Fin 2) = 0 :=
  (by decide +kernel : ∀ b : Fin 25, ∃ t : Fin grid0.N, win0_3.index t (0 : Fin 2) = b.val ∧ win0_3.index t (1 : Fin 2) = 0)

/-- THE ARRAY after region 0: row `r` is covered by the block of point `r / 4000`, so the array ends at `G0`. -/
theorem region0_value : (Gen.dat0 (F := Ideal) V c).arrAt 3 cfg0.N = G0 (V c main_arg0) (V c main_arg2) (V c main_v15) :=
  (dat0 (F := Ideal) V c).arrAt_eq_of_cover 3 (G0 (V c main_arg0) (V c main_arg2) (V c main_v15)) (fun t _ => flushed0_eq V c t) fun i => by
    have hi0 : (i 0).val < 100000 := (i 0).isLt
    have hi1 : (i 1).val < 64 := (i 1).isLt
    obtain ⟨t, q0, q1⟩ := idx_onto0 ⟨(i 0).val / 4000, by omega⟩
    refine ⟨t, flush0_3 t, ?_⟩
    rw [mem_blk0]
    intro a
    match a with
    | ⟨0, _⟩ => show win0_3.index t (0 : Fin 2) * 4000 ≤ (i 0).val ∧ (i 0).val < win0_3.index t (0 : Fin 2) * 4000 + 4000; rw [q0]; show (i 0).val / 4000 * 4000 ≤ (i 0).val ∧ (i 0).val < (i 0).val / 4000 * 4000 + 4000; omega
    | ⟨1, _⟩ => show win0_3.index t (1 : Fin 2) * 64 ≤ (i 1).val ∧ (i 1).val < win0_3.index t (1 : Fin 2) * 64 + 64; rw [q1]; omega

end Cert.KernelIdeal.RegionValue

end
-- ==== Proof.RegionValue1.lean ====
/- Region 1 of the idealized kernel, read as one whole-array function of the arrays the region finds.
   The region walks 25 row blocks of 4000 rows. At each block the body scales row `p` of the block of `s` (4000 × 64) by
   entry `p` of the block of the column `dinv`, adds the row `b` (1 × 64), cuts below at zero, multiplies by the whole of
   `w` (64 × 1) into a zero accumulator, and scales row `p` of the product by entry `p` of the column block again; on the
   extended reals the rounding of the operands to bf16 is the identity. So entry `(r, 0)` of the result array is
   `(∑ d, max (s (r, d) · dinv (r, 0) + b (0, d)) 0 · w (d, 0)) · dinv (r, 0)`: first the stored value at an entry of a
   block, then the blocks as rows of the arrays, then the 25 row blocks covering the array (row `r` lies in block
   `r / 4000`). -/
import proofs.«100186_j29197187678384_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-! ## Region 1: the second layer, fused: relu of the scaled, shifted rows, times `w2`, scaled again -/

/-- The whole-array result of region 1 as one function of the four arrays the region reads: entry `(r, 0)` is the
    sum over `d` of `max (s (r, d) · dinv (r, 0) + b (0, d)) 0 · w (d, 0)`, times `dinv (r, 0)`. -/
abbrev G1 (s : S100000x64.Idx → EReal) (dinv : S100000x1.Idx → EReal) (b : S1x64.Idx → EReal) (w : S64x1.Idx → EReal) : S100000x1.Idx → EReal :=
  fun i => (∑ d : Fin 64, max (s (ix2 (i 0) d) * dinv (ix2 (i 0) 0) + b (ix2 0 d)) 0 * w (ix2 d 0)) * dinv (ix2 (i 0) 0)

theorem hz1 : (![0, 0] : Fin 2 → Nat) = fun _ => 0 := funext fun a => by fin_cases a <;> rfl

/-- A column `[a, 1]` broadcast to `[a, b]` reads, at `(p, q)`, the column's entry `p`. -/
theorem broadcastTo_col1_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The left operand's index of the product at output `i`: row `i 0` on the kept axis. -/
theorem lhs1_0 (i : S4000x1.Idx) (k : dot_S4000x64_S64x1_S4000x1_1_0_0_1_n_n.contr.Idx) :
    (dot_S4000x64_S64x1_S4000x1_1_0_0_1_n_n.lhsIdx i k 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
/-- The right operand's index of the product at output `i`: column `i 1` on the kept axis. -/
theorem rhs1_1 (i : S4000x1.Idx) (k : dot_S4000x64_S64x1_S4000x1_1_0_0_1_n_n.contr.Idx) :
    (dot_S4000x64_S64x1_S4000x1_1_0_0_1_n_n.rhsIdx i k 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- The block product into the zero accumulator, read at `(p, 0)`: the sum over the contracted coordinate of the
    products of the two operands' entries. -/
theorem matmul1_apply (l : FVec Ideal S4000x64 .bf16) (r : FVec Ideal S64x1 .bf16) (p : Fin 4000) (q : Fin 1) :
    matmul dot_S4000x64_S64x1_S4000x1_1_0_0_1_n_n none l r (constant S4000x1 .f32 0x00000000#32) (ix2 p q)
      = ∑ d : Fin 64, l (ix2 p d) * r (ix2 d q) := by
  simp only [matmul]
  rw [Ideal.matmul_constant_zero_apply, ← Equiv.sum_comp (contrEquiv1 dot_S4000x64_S64x1_S4000x1_1_0_0_1_n_n 64 rfl rfl).symm]
  refine Finset.sum_congr rfl fun k _ => ?_
  have hk := contrEquiv1_symm_val dot_S4000x64_S64x1_S4000x1_1_0_0_1_n_n 64 rfl rfl k
  have el : dot_S4000x64_S64x1_S4000x1_1_0_0_1_n_n.lhsIdx (ix2 p q) ((contrEquiv1 dot_S4000x64_S64x1_S4000x1_1_0_0_1_n_n 64 rfl rfl).symm k) = ix2 p k := funext fun a => Fin.ext (by
    match a with
    | ⟨0, _⟩ => exact lhs1_0 _ _
    | ⟨1, _⟩ => exact (dot_S4000x64_S64x1_S4000x1_1_0_0_1_n_n.lhsIdx_val_of_single rfl _ _).trans hk)
  have er : dot_S4000x64_S64x1_S4000x1_1_0_0_1_n_n.rhsIdx (ix2 p q) ((contrEquiv1 dot_S4000x64_S64x1_S4000x1_1_0_0_1_n_n 64 rfl rfl).symm k) = ix2 k q := funext fun a => Fin.ext (by
    match a with
    | ⟨0, _⟩ => exact (dot_S4000x64_S64x1_S4000x1_1_0_0_1_n_n.rhsIdx_val_of_single rfl _ _).trans hk
    | ⟨1, _⟩ => exact rhs1_1 _ _)
  rw [el, er]

/-- The hidden activation the body forms before the product, at `(p, d)`: the block of `s` scaled by the column,
    shifted by the row `b`, and cut below at zero. -/
theorem hidden1_apply (v0 : Vec Ideal S4000x64 .f32) (v2 : Vec Ideal S4000x1 .f32) (v6 : Vec Ideal S1x64 .f32) (p : Fin 4000) (d : Fin 64) :
    maximumf (addf (mulf (shapeCast S4000x64 v0 shapeCasts_S4000x64_S4000x64)
          (broadcastTo S4000x64 (shapeCast S4000x1 v2 shapeCasts_S4000x1_S4000x1) broadcasts_S4000x1_S4000x64))
        (broadcastTo S4000x64 (shapeCast S1x64 v6 shapeCasts_S1x64_S1x64) broadcasts_S1x64_S4000x64))
      (broadcast S4000x64 (Scalar.ofBits (F := Ideal) .f32 0x00000000#32)) (ix2 p d)
      = max (v0 (ix2 p d) * v2 (ix2 p (0 : Fin 1)) + v6 (ix2 (0 : Fin 1) d)) 0 := by
  rw [maximumf_apply, addf_apply, mulf_apply, broadcast_apply, broadcastTo_col1_apply, broadcastTo_1b_ab_apply,
    shapeCast_self, shapeCast_self, shapeCast_self]
  show max _ (Ideal.ofBits .f32 0x00000000#32) = _
  rw [Ideal.ofBits_zero_f32]

/-- The body's stored value at `(p, 0)` of its block, from the loaded blocks (the column block is loaded twice): the
    rounding to bf16 is the identity on the extended reals, the accumulator is zero. -/
theorem pay1_apply (x0 : Vec Ideal S4000x64 .f32) (x1 : Vec Ideal S4000x1 .f32) (x2 : Vec Ideal S1x64 .f32) (x3 : Vec Ideal S64x1 .f32)
    (x4 : Vec Ideal S4000x1 .f32) (p : Fin 4000) (q : Fin 1) :
    k1_pay1 (F := Ideal) x0 x1 x2 x3 x4 (ix2 p q)
      = (∑ d : Fin 64, max (x0 (ix2 p d) * x1 (ix2 p (0 : Fin 1)) + x2 (ix2 (0 : Fin 1) d)) 0 * x3 (ix2 d q)) * x4 (ix2 p q) := by
  unfold k1_pay1
  have hm := matmul1_apply (truncf .bf16 (maximumf (addf (mulf (shapeCast S4000x64 x0 shapeCasts_S4000x64_S4000x64)
          (broadcastTo S4000x64 (shapeCast S4000x1 x1 shapeCasts_S4000x1_S4000x1) broadcasts_S4000x1_S4000x64))
        (broadcastTo S4000x64 (shapeCast S1x64 x2 shapeCasts_S1x64_S1x64) broadcasts_S1x64_S4000x64))
      (broadcast S4000x64 (Scalar.ofBits (F := Ideal) .f32 0x00000000#32))) bitsLt_bf16_f32) (truncf .bf16 x3 bitsLt_bf16_f32) p q
  have hs : (∑ d : Fin 64, (truncf .bf16 (maximumf (addf (mulf (shapeCast S4000x64 x0 shapeCasts_S4000x64_S4000x64)
          (broadcastTo S4000x64 (shapeCast S4000x1 x1 shapeCasts_S4000x1_S4000x1) broadcasts_S4000x1_S4000x64))
        (broadcastTo S4000x64 (shapeCast S1x64 x2 shapeCasts_S1x64_S1x64) broadcasts_S1x64_S4000x64))
      (broadcast S4000x64 (Scalar.ofBits (F := Ideal) .f32 0x00000000#32))) bitsLt_bf16_f32 : FVec Ideal S4000x64 .bf16) (ix2 p d)
        * (truncf .bf16 x3 bitsLt_bf16_f32 : FVec Ideal S64x1 .bf16) (ix2 d q))
      = ∑ d : Fin 64, max (x0 (ix2 p d) * x1 (ix2 p (0 : Fin 1)) + x2 (ix2 (0 : Fin 1) d)) 0 * x3 (ix2 d q) :=
    Finset.sum_congr rfl fun d _ => congrArg (· * x3 (ix2 d q)) (hidden1_apply x0 x1 x2 p d)
  have hb : shapeCast S4000x1 x4 shapeCasts_S4000x1_S4000x1 (ix2 p q) = x4 (ix2 p q) := by rw [shapeCast_self]
  exact congrArg₂ (· * ·) (hm.trans hs) hb

/-- What the body leaves in the output's staging buffer, at `(p, 0)`. -/
theorem out1_apply (x0 : Vec Ideal S4000x64 .f32) (x1 : Vec Ideal S4000x1 .f32) (x2 : Vec Ideal S1x64 .f32) (x3 : Vec Ideal S64x1 .f32)
    (p : Fin 4000) (q : Fin 1) :
    out1_4 (F := Ideal) x0 x1 x2 x3 (ix2 p q)
      = (∑ d : Fin 64, max (x0 (ix2 p d) * x1 (ix2 p (0 : Fin 1)) + x2 (ix2 (0 : Fin 1) d)) 0 * x3 (ix2 d q)) * x1 (ix2 p q) := by
  unfold out1_4
  rw [View.canon_unit_zero hz1]
  simp only [View.ld_unit_zero (S := S4000x64) hz1, View.ld_unit_zero (S := S4000x1) hz1, View.ld_unit_zero (S := S1x64) hz1, View.ld_unit_zero (S := S64x1) hz1]
  exact pay1_apply x0 x1 x2 x3 x1 p q

variable (V : (c : Dev nD) → (b : Ref sig .tc) → Buf (Elt Ideal) ((c : Thread nD τ).loc b)) (c : Dev nD)

/-- The windows' index maps over the grid: at point `t` the windows of `s`, of the column `dinv` and of the result are
    at row block `t`, the windows of the row `b` and of `w` are the whole arrays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of `s` at point `t` is rows `4000 t … 4000 t + 3999` of the array. -/
theorem iblk1_0_apply (t : Fin cfg1.N) (p : Fin 4000) (d : Fin 64) (hp : 4000 * t.val + p.val < 100000) :
    (iblk1 V c 0 t : Vec Ideal S4000x64 .f32) (ix2 p d) = (V c main_v26 : S100000x64.Idx → EReal) (ix2 ⟨4000 * t.val + p.val, hp⟩ d) := by
  obtain ⟨e0, e1, -⟩ := idx_facts1 t
  unfold iblk1
  rw [View.read_apply]
  show V c main_v26 _ = V c main_v26 _
  refine congrArg (V c main_v26) (funext fun a => Fin.ext ?_)
  match a with
  | ⟨0, _⟩ => show win1_0.index t (0 : Fin 2) * 4000 + 1 * p.val = 4000 * t.val + p.val; rw [e0]; omega
  | ⟨1, _⟩ => show win1_0.index t (1 : Fin 2) * 64 + 1 * d.val = d.val; rw [e1]; omega

/-- The block of the column `dinv` at point `t` is its rows `4000 t … 4000 t + 3999`. -/
theorem iblk1_1_apply (t : Fin cfg1.N) (p : Fin 4000) (q : Fin 1) (hp : 4000 * t.val + p.val < 100000) :
    (iblk1 V c 1 t : Vec Ideal S4000x1 .f32) (ix2 p q) = (V c main_v15 : S100000x1.Idx → EReal) (ix2 ⟨4000 * t.val + p.val, hp⟩ q) := by
  obtain ⟨-, -, e0, e1, -⟩ := idx_facts1 t
  unfold iblk1
  rw [View.read_apply]
  show V c main_v15 _ = V c main_v15 _
  refine congrArg (V c main_v15) (funext fun a => Fin.ext ?_)
  match a with
  | ⟨0, _⟩ => show win1_1.index t (0 : Fin 2) * 4000 + 1 * p.val = 4000 * t.val + p.val; rw [e0]; omega
  | ⟨1, _⟩ => show win1_1.index t (1 : Fin 2) * 1 + 1 * q.val = q.val; rw [e1]; omega

/-- The block of the row `b` at every point is the whole array. -/
theorem iblk1_2_apply (t : Fin cfg1.N) (z : Fin 1) (d : Fin 64) :
    (iblk1 V c 2 t : Vec Ideal S1x64 .f32) (ix2 z d) = (V c main_v27 : S1x64.Idx → EReal) (ix2 z d) := by
  obtain ⟨-, -, -, -, e0, e1, -⟩ := idx_facts1 t
  unfold iblk1
  rw [View.read_apply]
  show V c main_v27 _ = V c main_v27 _
  refine congrArg (V c main_v27) (funext fun a => Fin.ext ?_)
  match a with
  | ⟨0, _⟩ => show win1_2.index t (0 : Fin 2) * 1 + 1 * z.val = z.val; rw [e0]; omega
  | ⟨1, _⟩ => show win1_2.index t (1 : Fin 2) * 64 + 1 * d.val = d.val; rw [e1]; omega

/-- The block of `w` at every point is the whole array. -/
theorem iblk1_3_apply (t : Fin cfg1.N) (d : Fin 64) (q : Fin 1) :
    (iblk1 V c 3 t : Vec Ideal S64x1 .f32) (ix2 d q) = (V c main_arg4 : S64x1.Idx → EReal) (ix2 d q) := by
  obtain ⟨-, -, -, -, -, -, e0, e1, -⟩ := idx_facts1 t
  unfold iblk1
  rw [View.read_apply]
  show V c main_arg4 _ = V c main_arg4 _
  refine congrArg (V c main_arg4) (funext fun a => Fin.ext ?_)
  match a with
  | ⟨0, _⟩ => show win1_3.index t (0 : Fin 2) * 64 + 1 * d.val = d.val; rw [e0]; omega
  | ⟨1, _⟩ => show win1_3.index t (1 : Fin 2) * 1 + 1 * q.val = q.val; rw [e1]; omega

/-- From the blocks to the array, at one entry: if the four loaded blocks are those rows of the arrays, the body's
    result at `(p, q)` is `G1` of the arrays at row `4000 T + p`. -/
theorem out1_eq_G1 (x0 : Vec Ideal S4000x64 .f32) (x1 : Vec Ideal S4000x1 .f32) (x2 : Vec Ideal S1x64 .f32) (x3 : Vec Ideal S64x1 .f32)
    (A0 : S100000x64.Idx → EReal) (A1 : S100000x1.Idx → EReal) (A2 : S1x64.Idx → EReal) (A3 : S64x1.Idx → EReal) (T : ℕ) (p : Fin 4000) (q : Fin 1)
    (hp : 4000 * T + p.val < 100000)
    (h0 : ∀ d : Fin 64, x0 (ix2 p d) = A0 (ix2 ⟨4000 * T + p.val, hp⟩ d))
    (h1 : x1 (ix2 p (0 : Fin 1)) = A1 (ix2 ⟨4000 * T + p.val, hp⟩ (0 : Fin 1)))
    (h2 : ∀ d : Fin 64, x2 (ix2 (0 : Fin 1) d) = A2 (ix2 (0 : Fin 1) d))
    (h3 : ∀ d : Fin 64, x3 (ix2 d (0 : Fin 1)) = A3 (ix2 d (0 : Fin 1))) :
    out1_4 (F := Ideal) x0 x1 x2 x3 (ix2 p q) = G1 A0 A1 A2 A3 (ix2 ⟨4000 * T + p.val, hp⟩ q) := by
  obtain rfl : q = (0 : Fin 1) := Subsingleton.elim _ _
  rw [out1_apply, h1]
  show _ = (∑ d : Fin 64, max (A0 (ix2 ⟨4000 * T + p.val, hp⟩ d) * A1 (ix2 ⟨4000 * T + p.val, hp⟩ (0 : Fin 1)) + A2 (ix2 (0 : Fin 1) d)) 0 * A3 (ix2 d (0 : Fin 1)))
      * A1 (ix2 ⟨4000 * T + p.val, hp⟩ (0 : Fin 1))
  exact congrArg (· * _) (Finset.sum_congr rfl fun d _ => by rw [h0 d, h2 d, h3 d])

/-- WHAT POINT `t` WRITES BACK is block `t` of `G1` of the arrays as the region finds them. -/
theorem flushed1_eq (t : Fin cfg1.N) :
    (dat1 (F := Ideal) V c).flushed 4 t
      = ((cfg1.win 4).blk t).view.read (Elt Ideal) (G1 (V c main_v26) (V c main_v15) (V c main_v27) (V c main_arg4)) := by
  show (cfg1.win 4).cut (grid1.coords t) ((dat1 V c).after 4 t) = _
  rw [after1_4]
  obtain ⟨-, -, -, -, -, -, -, -, e0, e1⟩ := idx_facts1 t
  have ht : t.val < 25 := lt_of_lt_of_eq t.isLt N_1
  funext j
  have hp : (j 0).val < 4000 := (j 0).isLt
  have hq : (j 1).val < 1 := (j 1).isLt
  have hP : 4000 * t.val + (j 0).val < 100000 := by omega
  have hj : j = ix2 (⟨(j 0).val, hp⟩ : Fin 4000) (⟨(j 1).val, hq⟩ : Fin 1) :=
    funext fun a => Fin.ext (by match a with | ⟨0, _⟩ => rfl | ⟨1, _⟩ => rfl)
  have he : ((cfg1.win 4).blk t).view.emb j = ix2 (⟨4000 * t.val + (j 0).val, hP⟩ : Fin 100000) (⟨(j 1).val, hq⟩ : Fin 1) :=
    funext fun a => Fin.ext (by
      match a with
      | ⟨0, _⟩ => show win1_4.index t (0 : Fin 2) * 4000 + 1 * (j 0).val = 4000 * t.val + (j 0).val; rw [e0]; omega
      | ⟨1, _⟩ => show win1_4.index t (1 : Fin 2) * 1 + 1 * (j 1).val = (j 1).val; rw [e1]; omega)
  show out1_4 (F := Ideal) (iblk1 V c 0 t) (iblk1 V c 1 t) (iblk1 V c 2 t) (iblk1 V c 3 t) j
      = G1 (V c main_v26) (V c main_v15) (V c main_v27) (V c main_arg4) (((cfg1.win 4).blk t).view.emb j)
  refine (congrArg (out1_4 (F := Ideal) (iblk1 V c 0 t) (iblk1 V c 1 t) (iblk1 V c 2 t) (iblk1 V c 3 t)) hj).trans ?_
  refine (out1_eq_G1 (iblk1 V c 0 t) (iblk1 V c 1 t) (iblk1 V c 2 t) (iblk1 V c 3 t)
    (V c main_v26) (V c main_v15) (V c main_v27) (V c main_arg4) t.val
    ⟨(j 0).val, hp⟩ ⟨(j 1).val, hq⟩ hP (fun d => iblk1_0_apply V c t ⟨(j 0).val, hp⟩ d hP) (iblk1_1_apply V c t ⟨(j 0).val, hp⟩ (0 : Fin 1) hP)
    (fun d => iblk1_2_apply V c t (0 : Fin 1) d) (fun d => iblk1_3_apply V c t d (0 : Fin 1))).trans ?_
  exact congrArg (G1 (V c main_v26) (V c main_v15) (V c main_v27) (V c main_arg4)) he.symm

/-- An index of the result array is in point `t`'s block iff each coordinate is in the block's range on its axis. -/
theorem mem_blk1 (t : Fin cfg1.N) (i : S100000x1.Idx) :
    i ∈ ((cfg1.win 4).blk t).view.set ↔ ∀ a : Fin 2, win1_4.index t a * S4000x1.size a ≤ (i a).val ∧ (i a).val < win1_4.index t a * S4000x1.size a + S4000x1.size a := by
  show i ∈ ((View.whole main_v28).slice (win1_4.rect t)).set ↔ _
  rw [View.set_slice_whole, Rect.mem_set_unit]
  exact Iff.rfl

/-- Every row block of the result is some point's: block `b` is point `b`'s. -/
theorem idx_onto1 : ∀ b : Fin 25, ∃ t : Fin cfg1.N, win1_4.index t (0 : Fin 2) = b.val ∧ win1_4.index t (1 : Fin 2) = 0 :=
  (by decide +kernel : ∀ b : Fin 25, ∃ t : Fin grid1.N, win1_4.index t (0 : Fin 2) = b.val ∧ win1_4.index t (1 : Fin 2) = 0)

/-- THE ARRAY after region 1: row `r` is covered by the block of point `r / 4000`, so the array ends at `G1`. -/
theorem region1_value : (Gen.dat1 (F := Ideal) V c).arrAt 4 cfg1.N = G1 (V c main_v26) (V c main_v15) (V c main_v27) (V c main_arg4) :=
  (dat1 (F := Ideal) V c).arrAt_eq_of_cover 4 (G1 (V c main_v26) (V c main_v15) (V c main_v27) (V c main_arg4)) (fun t _ => flushed1_eq V c t) fun i => by
    have hi0 : (i 0).val < 100000 := (i 0).isLt
    have hi1 : (i 1).val < 1 := (i 1).isLt
    obtain ⟨t, q0, q1⟩ := idx_onto1 ⟨(i 0).val / 4000, by omega⟩
    refine ⟨t, flush1_4 t, ?_⟩
    rw [mem_blk1]
    intro a
    match a with
    | ⟨0, _⟩ => show win1_4.index t (0 : Fin 2) * 4000 ≤ (i 0).val ∧ (i 0).val < win1_4.index t (0 : Fin 2) * 4000 + 4000; rw [q0]; show (i 0).val / 4000 * 4000 ≤ (i 0).val ∧ (i 0).val < (i 0).val / 4000 * 4000 + 4000; omega
    | ⟨1, _⟩ => show win1_4.index t (1 : Fin 2) * 1 ≤ (i 1).val ∧ (i 1).val < win1_4.index t (1 : Fin 2) * 1 + 1; rw [q1]; omega

end Cert.KernelIdeal.RegionValue

end
-- ==== Proof.RegionValue2.lean ====
/-
  The closed whole-array form of what the second of the program's three kernel regions leaves in its output array, at the
  ideal instance and for ANY entry contents `V` of the region: over a grid of 25 points, each of 4000 rows, the body
  stores the logistic of (row of `%38`) × (row of `%15`) + the one element of `%39`, pointwise; the 25 blocks tile the
  100000 rows, so the array ends holding that function of its row (`region2_value`).
  The steps: the payload at an index (`pay_apply`), the printed index maps over the grid (`idx_facts`), each input
  block as rows of its array (`iblk2_*_apply`), what a point writes back (`flushed2_3_eq`), the cover by arithmetic
  (`mem_blk2_3`, `cover2_3_rows`).
-/
import proofs.«100186_j29197187678384_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The entry contents of the region's three input arrays, typed as functions into the extended reals: `%38` and
    `%15` (columns of 100000 rows) and `%39` (one element). Each is `V c <ref>` itself (`rfl`); the typed name lets the
    arithmetic below be written in `EReal`. -/
abbrev in38 (c : Dev nD) : S100000x1.Idx → EReal := V c main_v38
/-- See `in38`. -/
abbrev in15 (c : Dev nD) : S100000x1.Idx → EReal := V c main_v15
/-- See `in38`. -/
abbrev in39 (c : Dev nD) : S1x1.Idx → EReal := V c main_v39

/-- What the region leaves in its output array: row by row, the logistic of the row's product plus the bias. -/
abbrev out40 (c : Dev nD) : S100000x1.Idx → EReal := fun i =>
  Ideal.logistic (in38 V c (ix2 (i 0) 0) * in15 V c (ix2 (i 0) 0) + in39 V c (ix2 0 0))

theorem hz : (![0, 0] : Fin 2 → Nat) = fun _ => 0 := funext fun a => by fin_cases a <;> rfl

/-- The body's payload at an index: pointwise, with the one-element bias broadcast. -/
theorem pay_apply (x0 x1 : Vec Ideal S4000x1 .f32) (x2 : Vec Ideal S1x1 .f32) (j : S4000x1.Idx) :
    k2_pay1 x0 x1 x2 j = Ideal.logistic (x0 j * x1 j + x2 (ix2 0 0)) := by
  unfold k2_pay1
  simp only [shapeCast_self]
  show Ideal.logistic (x0 j * x1 j + broadcastTo S4000x1 x2 broadcasts_S1x1_S4000x1 j) = _
  rw [broadcastTo_apply x2 broadcasts_S1x1_S4000x1 j (ix2 0 0)
    (by intro a; match a with | ⟨0, _⟩ => rfl | ⟨1, _⟩ => rfl)]

/-- The printed index maps over the grid: the three row-blocked windows sit at block `t`, the bias window at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point `t` is rows `4000 t … 4000 t + 3999` of `%38`. -/
theorem iblk2_0_apply (c : Dev nD) (t : Fin cfg2.N) (x : S4000x1.Idx) (k : S100000x1.Idx)
    (hk0 : (k 0).val = 4000 * t.val + (x 0).val) (hk1 : (k 1).val = 0) :
    (iblk2 V c 0 t : Vec Ideal S4000x1 .f32) x = in38 V c k := by
  obtain ⟨h0, h1, -⟩ := idx_facts t
  have hx : (x 1).val < 1 := (x 1).isLt
  unfold iblk2
  rw [View.read_apply]
  show V c main_v38 _ = V c main_v38 k
  congr 1
  funext a
  apply Fin.ext
  match a with
  | ⟨0, _⟩ => show win2_0.index t 0 * 4000 + 1 * (x 0).val = (k 0).val; rw [h0, hk0]; omega
  | ⟨1, _⟩ => show win2_0.index t 1 * 1 + 1 * (x 1).val = (k 1).val; rw [h1, hk1]; omega

/-- Window 1's block at point `t` is rows `4000 t … 4000 t + 3999` of `%15`. -/
theorem iblk2_1_apply (c : Dev nD) (t : Fin cfg2.N) (x : S4000x1.Idx) (k : S100000x1.Idx)
    (hk0 : (k 0).val = 4000 * t.val + (x 0).val) (hk1 : (k 1).val = 0) :
    (iblk2 V c 1 t : Vec Ideal S4000x1 .f32) x = in15 V c k := by
  obtain ⟨-, -, h0, h1, -⟩ := idx_facts t
  have hx : (x 1).val < 1 := (x 1).isLt
  unfold iblk2
  rw [View.read_apply]
  show V c main_v15 _ = V c main_v15 k
  congr 1
  funext a
  apply Fin.ext
  match a with
  | ⟨0, _⟩ => show win2_1.index t 0 * 4000 + 1 * (x 0).val = (k 0).val; rw [h0, hk0]; omega
  | ⟨1, _⟩ => show win2_1.index t 1 * 1 + 1 * (x 1).val = (k 1).val; rw [h1, hk1]; omega

/-- Window 2's block at every point is the one element of `%39`. -/
theorem iblk2_2_apply (c : Dev nD) (t : Fin cfg2.N) (x : S1x1.Idx) (k : S1x1.Idx) :
    (iblk2 V c 2 t : Vec Ideal S1x1 .f32) x = in39 V c k := by
  obtain ⟨-, -, -, -, h0, h1, -⟩ := idx_facts t
  have hx0 : (x 0).val < 1 := (x 0).isLt
  have hx1 : (x 1).val < 1 := (x 1).isLt
  have hk0 : (k 0).val < 1 := (k 0).isLt
  have hk1 : (k 1).val < 1 := (k 1).isLt
  unfold iblk2
  rw [View.read_apply]
  show V c main_v39 _ = V c main_v39 k
  congr 1
  funext a
  apply Fin.ext
  match a with
  | ⟨0, _⟩ => show win2_2.index t 0 * 1 + 1 * (x 0).val = (k 0).val; rw [h0]; omega
  | ⟨1, _⟩ => show win2_2.index t 1 * 1 + 1 * (x 1).val = (k 1).val; rw [h1]; omega

/-- What point `t` writes back is block `t` of `out40` of the region's entry contents. -/
theorem flushed2_3_eq (c : Dev nD) (t : Fin cfg2.N) :
    (dat2 V c).flushed 3 t = ((cfg2.win 3).blk t).view.read (Elt Ideal) (out40 V c) := by
  show (cfg2.win 3).cut (grid2.coords t) ((dat2 V c).after 3 t) = _
  rw [after2_3]
  unfold out2_3
  rw [View.canon_unit_zero hz]
  simp only [View.ld_unit_zero (S := S4000x1) hz, View.ld_unit_zero (S := S1x1) hz]
  obtain ⟨-, -, -, -, -, -, h30, h31⟩ := idx_facts t
  funext j
  show k2_pay1 (iblk2 V c 0 t) (iblk2 V c 1 t) (iblk2 V c 2 t) j = out40 V c (((cfg2.win 3).blk t).view.emb j)
  refine (pay_apply (iblk2 V c 0 t) (iblk2 V c 1 t) (iblk2 V c 2 t) j).trans ?_
  have hr : ((((cfg2.win 3).blk t).view.emb j) 0).val = 4000 * t.val + (j 0).val := by
    show win2_3.index t 0 * 4000 + 1 * (j 0).val = _
    rw [h30]; omega
  have e0 := iblk2_0_apply V c t j (ix2 ((((cfg2.win 3).blk t).view.emb j) 0) 0) hr rfl
  have e1 := iblk2_1_apply V c t j (ix2 ((((cfg2.win 3).blk t).view.emb j) 0) 0) hr rfl
  have e2 := iblk2_2_apply V c t (ix2 0 0) (ix2 0 0)
  rw [e0, e1, e2]

/-- An index of the output array is in point `t`'s block iff each coordinate is in the block's range on its axis. -/
theorem mem_blk2_3 (t : Fin cfg2.N) (i : S100000x1.Idx) :
    i ∈ ((cfg2.win 3).blk t).view.set ↔ ∀ a : Fin 2, win2_3.index t a * S4000x1.size a ≤ (i a).val ∧ (i a).val < win2_3.index t a * S4000x1.size a + S4000x1.size a := by
  show i ∈ ((View.whole main_v40).slice (win2_3.rect t)).set ↔ _
  rw [View.set_slice_whole, Rect.mem_set_unit]
  exact Iff.rfl

/-- Every row is in some point's block: row `r` in the block of point `r / 4000`. -/
theorem cover2_3_rows (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  have hN : cfg2.N = 25 := N_2
  let t : Fin cfg2.N := ⟨(i 0).val / 4000, by rw [hN]; omega⟩
  have ht : t.val = (i 0).val / 4000 := rfl
  obtain ⟨-, -, -, -, -, -, h30, h31⟩ := idx_facts t
  refine ⟨t, flush2_3 t, ?_⟩
  rw [mem_blk2_3]
  intro a
  match a with
  | ⟨0, _⟩ => show win2_3.index t 0 * 4000 ≤ (i 0).val ∧ (i 0).val < win2_3.index t 0 * 4000 + 4000; rw [h30, ht]; omega
  | ⟨1, _⟩ => show win2_3.index t 1 * 1 ≤ (i 1).val ∧ (i 1).val < win2_3.index t 1 * 1 + 1; rw [h31]; omega

/-- **The region's output array after its run**, as one function of the region's entry contents: row `r` holds the
    logistic of `%38[r] * %15[r] + %39[0]`. -/
theorem region2_value (c : Dev nD) :
    (Gen.dat2 (F := Ideal) V c).arrAt 3 cfg2.N = fun i : S100000x1.Idx =>
      Ideal.logistic (in38 V c (ix2 (i 0) 0) * in15 V c (ix2 (i 0) 0) + in39 V c (ix2 0 0)) :=
  (dat2 V c).arrAt_eq_of_cover 3 (out40 V c) (fun t _ => flushed2_3_eq V c t) (cover2_3_rows)

end Cert.KernelIdeal.RegionValue

end
-- ==== Proof.GcnStages.lean ====
/-
  The stages of a two-layer graph convolution, as whole-array functions of the arguments, spelt in the host
  operations the programs use.

  * `row ei`, `col ei`: the destination and source of every edge — the two rows of `ei` with the self loops
    `0, 1, …, 99999` appended (3 300 000 entries each).
  * `rowIdx ei`: `row` as a column of scatter indices. `wrap v`: `v` with `100000` added to its negative entries,
    as a column of gather indices (a gather then clamps into `[0, 99999]`).
  * `deg ei`: the degree of each node, a sum of ones scattered by `row`. `dinv ei`: `deg ^ (-1/2)` where the degree
    is positive, else `0`.
  * `norm ei`: the edge weight `dinv (row e) * dinv (col e)`.
  * `conv64` / `conv1`: one propagation in the reference's arrangement — gather the rows of `h` by `col`, scale each
    by the edge weight, sum into `row`.
  * `layer1 x ei w1 b1`: `max (conv64 (x · w1) + b1) 0`; `out`: `1 / (1 + exp (-(conv1 (layer1 · w2) + b2)))`.
-/
import proofs.«100186_j29197187678384_2_alg».proof.Proof.Gen.ReferenceIdeal

noncomputable section

namespace Cert.Gcn.Stages

open Cert.ReferenceIdeal Cert.ReferenceIdeal.Gen Idealize.ShloMosaic Idealize.ShloMosaic.TcCoe

variable {F : FTy → Type} [FloatOps F]

/-- An array of 32-bit integers of shape `s`. -/
abbrev IArr (F : FTy → Type) (s : Shape) := (⟨s, .i32⟩ : BufTy).Contents (Elt F)
/-- An array of single-precision floats of shape `s`. -/
abbrev FArr (F : FTy → Type) (s : Shape) := (⟨s, .f32⟩ : BufTy).Contents (Elt F)

/-- The scalar `0.0` spread over a shape. -/
def zeros (s : Shape) (h : S_.BroadcastsInDim s (![] : Fin 0 → Fin s.rank)) : FArr F s :=
  broadcastInDim s ![] h (constant S_ .f32 0x00000000#32)
/-- The scalar `1.0` spread over a shape. -/
def ones (s : Shape) (h : S_.BroadcastsInDim s (![] : Fin 0 → Fin s.rank)) : FArr F s :=
  broadcastInDim s ![] h (constant S_ .f32 0x3F800000#32)

/-- Every edge's destination: row 0 of `ei`, then the self loops. -/
def row (ei : IArr F S2x3200000) : IArr F S3300000 :=
  concatenate S3300000 0
    [⟨S3200000, shapeCast _ (extractStridedSlice S1x3200000 ![0, 0] ei slices_S2x3200000_S1x3200000_0_0) shapeCasts_S1x3200000_S3200000⟩,
     ⟨S100000, iotaInDim S100000 32 0⟩] concatenates_S3200000_S100000_S3300000_d0
/-- Every edge's source: row 1 of `ei`, then the self loops. -/
def col (ei : IArr F S2x3200000) : IArr F S3300000 :=
  concatenate S3300000 0
    [⟨S3200000, shapeCast _ (extractStridedSlice S1x3200000 ![1, 0] ei slices_S2x3200000_S1x3200000_1_0) shapeCasts_S1x3200000_S3200000⟩,
     ⟨S100000, iotaInDim S100000 32 0⟩] concatenates_S3200000_S100000_S3300000_d0

/-- A list of node numbers as a column of indices. -/
def asColumn (v : IArr F S3300000) : IArr F S3300000x1 := broadcastInDim S3300000x1 ![0] bcast_S3300000_S3300000x1_0 v
/-- The destinations as scatter indices. -/
def rowIdx (ei : IArr F S2x3200000) : IArr F S3300000x1 := asColumn (F := F) (row (F := F) ei)
/-- Node numbers with `100000` added to the negative ones, as gather indices. -/
def wrap (v : IArr F S3300000) : IArr F S3300000x1 :=
  asColumn (F := F) (select (cmpi .slt v (broadcastInDim S3300000 ![] bcast_S_S3300000 (constantI S_ 32 0#32)))
    (addi v (broadcastInDim S3300000 ![] bcast_S_S3300000 (constantI S_ 32 100000#32))) v)

/-- The degree of each node: ones summed by destination. -/
def deg (ei : IArr F S2x3200000) : FArr F S100000 :=
  Host.scatterAdd scatter_S100000_S3300000x1_S3300000_n_0_0_1 (zeros (F := F) S100000 bcast_S_S100000) (rowIdx (F := F) ei)
    (ones (F := F) S3300000 bcast_S_S3300000)
/-- `deg ^ (-1/2)` where the degree is positive, `0` elsewhere. -/
def dinv (ei : IArr F S2x3200000) : FArr F S100000 :=
  select (cmpf .ogt (deg (F := F) ei) (zeros (F := F) S100000 bcast_S_S100000)) (Host.rsqrt (deg (F := F) ei))
    (zeros (F := F) S100000 bcast_S_S100000)
/-- The edge weight `dinv (row e) * dinv (col e)`. -/
def norm (ei : IArr F S2x3200000) : FArr F S3300000 :=
  mulf (Host.gather gather_S100000_S3300000x1_S3300000_n_0_n_n_0_1_1 (dinv (F := F) ei) (wrap (F := F) (row (F := F) ei)))
    (Host.gather gather_S100000_S3300000x1_S3300000_n_0_n_n_0_1_1 (dinv (F := F) ei) (wrap (F := F) (col (F := F) ei)))

/-- One propagation of 64 features, the reference's way: gather by source, scale by the edge weight, sum by destination. -/
def conv64 (h : FArr F S100000x64) (ei : IArr F S2x3200000) : FArr F S100000x64 :=
  Host.scatterAdd scatter_S100000x64_S3300000x1_S3300000x64_1_0_0_1 (zeros (F := F) S100000x64 bcast_S_S100000x64) (rowIdx (F := F) ei)
    (mulf (Host.gather gather_S100000x64_S3300000x1_S3300000x64_1_0_n_n_0_1_164 h (wrap (F := F) (col (F := F) ei)))
      (broadcastInDim S3300000x64 ![0, 1] bcast_S3300000x1_S3300000x64_0_1
        (broadcastInDim S3300000x1 ![0] bcast_S3300000_S3300000x1_0 (norm (F := F) ei))))
/-- One propagation of a single feature, the reference's way. -/
def conv1 (h : FArr F S100000x1) (ei : IArr F S2x3200000) : FArr F S100000x1 :=
  Host.scatterAdd scatter_S100000x1_S3300000x1_S3300000x1_1_0_0_1 (zeros (F := F) S100000x1 bcast_S_S100000x1) (rowIdx (F := F) ei)
    (mulf (Host.gather gather_S100000x1_S3300000x1_S3300000x1_1_0_n_n_0_1_11 h (wrap (F := F) (col (F := F) ei)))
      (broadcastInDim S3300000x1 ![0] bcast_S3300000_S3300000x1_0 (norm (F := F) ei)))

/-- The first layer: `max (conv64 (x · w1) + b1) 0`. -/
def layer1 (x : FArr F S100000x128) (ei : IArr F S2x3200000) (w1 : FArr F S128x64) (b1 : FArr F S64) : FArr F S100000x64 :=
  maximumf
    (addf (conv64 (F := F) (Host.dotGeneral dot_S100000x128_S128x64_S100000x64_1_0_0_1_n_n none x w1) ei)
      (broadcastInDim S100000x64 ![0, 1] bcast_S1x64_S100000x64_0_1 (broadcastInDim S1x64 ![1] bcast_S64_S1x64_1 b1)))
    (zeros (F := F) S100000x64 bcast_S_S100000x64)
/-- The second layer before its activation: `conv1 (a · w2) + b2`. -/
def layer2 (a : FArr F S100000x64) (ei : IArr F S2x3200000) (w2 : FArr F S64x1) (b2 : FArr F S1) : FArr F S100000x1 :=
  addf (conv1 (F := F) (Host.dotGeneral dot_S100000x64_S64x1_S100000x1_1_0_0_1_n_n none a w2) ei)
    (broadcastInDim S100000x1 ![0, 1] bcast_S1x1_S100000x1_0_1 (broadcastInDim S1x1 ![1] bcast_S1_S1x1_1 b2))
/-- The whole network: `1 / (1 + exp (-layer2 (layer1 …)))`. -/
def out (x : FArr F S100000x128) (ei : IArr F S2x3200000) (w1 : FArr F S128x64) (b1 : FArr F S64) (w2 : FArr F S64x1) (b2 : FArr F S1) :
    FArr F S100000x1 :=
  Host.divf (ones (F := F) S100000x1 bcast_S_S100000x1)
    (addf (ones (F := F) S100000x1 bcast_S_S100000x1)
      (Host.exp (Host.negf (layer2 (F := F) (layer1 (F := F) x ei w1 b1) ei w2 b2))))

end Cert.Gcn.Stages

end
-- ==== Proof.GcnKernelStages.lean ====
/-
  The kernel's arrangement of the same network. The edge weight `dinv (row e) * dinv (col e)` is split: each layer
  scales its features by `dinv` of the SOURCE before the propagation and by `dinv` of the DESTINATION after it, so
  the propagation itself (`prop64`, `prop1`) is a bare "gather by `col`, sum into `row`".

  * `pre1 x w1 dc`: `(x · w1) * dinv`, row by row (`dc` is `dinv` as a column).
  * `pre2 s dc b1r w2`: `(max (s * dinv + b1) 0 · w2) * dinv` — the first layer's post-scale, bias and maximum
    against zero, then the second layer's product and pre-scale.
  * `post s dc b2r`: `1 / (1 + exp (-(s * dinv + b2)))`.
-/
import proofs.«100186_j29197187678384_2_alg».proof.Proof.GcnStages
import Idealize.ShloMosaic.Lib.ValueIdx

noncomputable section

namespace Cert.Gcn.KStages

open Cert.ReferenceIdeal Cert.ReferenceIdeal.Gen Idealize.ShloMosaic Idealize.ShloMosaic.TcCoe Idealize.ShloMosaic.ValueIdx
open Cert.Gcn Cert.Gcn.Stages

/-- The first layer's features, scaled by the source's `dinv`. -/
def pre1 (x : S100000x128.Idx → EReal) (w1 : S128x64.Idx → EReal) (dc : S100000x1.Idx → EReal) : S100000x64.Idx → EReal :=
  fun i => (∑ k : Fin 128, x (ix2 (i 0) k) * w1 (ix2 k (i 1))) * dc (ix2 (i 0) 0)

/-- A bare propagation of 64 features: gather the rows by source, sum them by destination. -/
def prop64 (g : S100000x64.Idx → EReal) (ei : S2x3200000.Idx → BitVec 32) : S100000x64.Idx → EReal :=
  Host.scatterAdd (F := Ideal) (φ := .f32) scatter_S100000x64_S3300000x1_S3300000x64_1_0_0_1 (zeros (F := Ideal) S100000x64 bcast_S_S100000x64)
    (rowIdx (F := Ideal) ei)
    (Host.gather gather_S100000x64_S3300000x1_S3300000x64_1_0_n_n_0_1_164 g (wrap (F := Ideal) (col (F := Ideal) ei)))

/-- The first layer finished (post-scale, bias, maximum against zero), then the second layer's feature scaled by
    the source's `dinv`. -/
def pre2 (s : S100000x64.Idx → EReal) (dc : S100000x1.Idx → EReal) (b1r : S1x64.Idx → EReal) (w2 : S64x1.Idx → EReal) :
    S100000x1.Idx → EReal :=
  fun i => (∑ d : Fin 64, max (s (ix2 (i 0) d) * dc (ix2 (i 0) 0) + b1r (ix2 0 d)) 0 * w2 (ix2 d 0)) * dc (ix2 (i 0) 0)

/-- A bare propagation of one feature. -/
def prop1 (g : S100000x1.Idx → EReal) (ei : S2x3200000.Idx → BitVec 32) : S100000x1.Idx → EReal :=
  Host.scatterAdd (F := Ideal) (φ := .f32) scatter_S100000x1_S3300000x1_S3300000x1_1_0_0_1 (zeros (F := Ideal) S100000x1 bcast_S_S100000x1)
    (rowIdx (F := Ideal) ei)
    (Host.gather gather_S100000x1_S3300000x1_S3300000x1_1_0_n_n_0_1_11 g (wrap (F := Ideal) (col (F := Ideal) ei)))

/-- The second layer finished: post-scale, bias, logistic. -/
def post (s : S100000x1.Idx → EReal) (dc : S100000x1.Idx → EReal) (b2r : S1x1.Idx → EReal) : S100000x1.Idx → EReal :=
  fun i => Ideal.logistic (s (ix2 (i 0) 0) * dc (ix2 (i 0) 0) + b2r (ix2 0 0))

/-- The kernel's network. -/
def out (x : S100000x128.Idx → EReal) (ei : S2x3200000.Idx → BitVec 32) (w1 : S128x64.Idx → EReal) (dc : S100000x1.Idx → EReal)
    (b1r : S1x64.Idx → EReal) (w2 : S64x1.Idx → EReal) (b2r : S1x1.Idx → EReal) : S100000x1.Idx → EReal :=
  post (prop1 (pre2 (prop64 (pre1 x w1 dc) ei) dc b1r w2) ei) dc b2r

end Cert.Gcn.KStages

end
-- ==== Proof.KernelValue.lean ====
/-
  The idealized kernel's result as a function of its arguments. The run ends with the result buffer at the last
  region's exit contents; walking back through the segment boundaries:

  * the first three stretches of host operations leave `row`, `col` and `dinv` (as a column) — the same stage
    functions the reference computes — and touch no argument;
  * region 0 writes `pre1`: the first layer's features scaled by the source's `dinv`;
  * the next stretch propagates them (`prop64`) and lays the first bias out as a row;
  * region 1 writes `pre2`; the next stretch propagates it (`prop1`) and lays out the second bias;
  * region 2 writes `post`.
  A buffer that a stretch or a region does not write keeps its contents across it.
-/
import proofs.«100186_j29197187678384_2_alg».proof.Proof.KernelRun
import proofs.«100186_j29197187678384_2_alg».proof.Proof.RegionValue0
import proofs.«100186_j29197187678384_2_alg».proof.Proof.RegionValue1
import proofs.«100186_j29197187678384_2_alg».proof.Proof.RegionValue2
import proofs.«100186_j29197187678384_2_alg».proof.Proof.GcnKernelStages
import Idealize.ShloMosaic.Lib.StableHlo.Run

set_option maxRecDepth 16384
set_option maxHeartbeats 1000000

noncomputable section

namespace Cert.KernelIdeal.HandRun

open Cert.KernelIdeal Cert.KernelIdeal.Gen Cert.KernelIdeal.RegionValue
open Idealize.ShloMosaic Idealize.ShloMosaic.TcCoe Idealize.ShloMosaic.Tactic Idealize.ShloMosaic.StableHlo
open Idealize.SL.Sem
open Cert.Gcn

section AnyF
variable {F : FTy → Type} [FloatOps F]
variable (m : (ℓ : Loc nD τ sig) → Buf (Elt F) ℓ) (ρ : Dev nD → PrngReg) (c : Dev nD)

/-- The first three stretches leave the destinations of the edges at `row`. -/
theorem W3_row_any : W3 m ρ c (Proc.devRef .tc main_v3) = Stages.row (F := F) (m ((c.tc : Thread nD τ).loc main_arg1)) := by
  after_results; rfl
/-- … the sources at `col`. -/
theorem W3_col_any : W3 m ρ c (Proc.devRef .tc main_v6) = Stages.col (F := F) (m ((c.tc : Thread nD τ).loc main_arg1)) := by
  after_results; rfl
/-- … and `dinv`, laid out as a column. -/
theorem W3_dc_any : W3 m ρ c (Proc.devRef .tc main_v15)
    = shapeCast S100000x1 (Stages.dinv (F := F) (m ((c.tc : Thread nD τ).loc main_arg1))) shapeCasts_S100000_S100000x1 := by
  after_results; rfl

end AnyF

variable (m : (ℓ : Loc nD τ sig) → Buf (Elt Ideal) ℓ) (ρ : Dev nD → PrngReg) (c : Dev nD)

/-- `dinv` of the launch's edge list, as a column. -/
def dcol : Cert.ReferenceIdeal.S100000x1.Idx → EReal :=
  shapeCast S100000x1 (Stages.dinv (F := Ideal) (m ((c.tc : Thread nD τ).loc main_arg1))) shapeCasts_S100000_S100000x1
/-- The first bias as a row. -/
def b1row : Cert.ReferenceIdeal.S1x64.Idx → EReal := shapeCast S1x64 (m ((c.tc : Thread nD τ).loc main_arg3)) shapeCasts_S64_S1x64
/-- The second bias as a 1×1 array. -/
def b2row : Cert.ReferenceIdeal.S1x1.Idx → EReal := shapeCast S1x1 (m ((c.tc : Thread nD τ).loc main_arg5)) shapeCasts_S1_S1x1

/-! ## At region 0's entry -/

theorem W3_row : W3 m ρ c (Proc.devRef .tc main_v3) = Stages.row (F := Ideal) (m ((c.tc : Thread nD τ).loc main_arg1)) := W3_row_any m ρ c
theorem W3_col : W3 m ρ c (Proc.devRef .tc main_v6) = Stages.col (F := Ideal) (m ((c.tc : Thread nD τ).loc main_arg1)) := W3_col_any m ρ c
theorem W3_dc : W3 m ρ c (Proc.devRef .tc main_v15) = dcol m c := W3_dc_any m ρ c
theorem W3_arg0 : W3 m ρ c (Proc.devRef .tc main_arg0) = (m ((c.tc : Thread nD τ).loc main_arg0)) := by after_results
theorem W3_arg2 : W3 m ρ c (Proc.devRef .tc main_arg2) = (m ((c.tc : Thread nD τ).loc main_arg2)) := by after_results
theorem W3_arg3 : W3 m ρ c (Proc.devRef .tc main_arg3) = (m ((c.tc : Thread nD τ).loc main_arg3)) := by after_results
theorem W3_arg4 : W3 m ρ c (Proc.devRef .tc main_arg4) = (m ((c.tc : Thread nD τ).loc main_arg4)) := by after_results
theorem W3_arg5 : W3 m ρ c (Proc.devRef .tc main_arg5) = (m ((c.tc : Thread nD τ).loc main_arg5)) := by after_results

/-! ## At region 0's exit -/

theorem W4_row : W4 m ρ c (Proc.devRef .tc main_v3) = Stages.row (F := Ideal) (m ((c.tc : Thread nD τ).loc main_arg1)) :=
  (W4_of_ne m ρ c main_v3 (by decide)).trans (W3_row m ρ c)
theorem W4_col : W4 m ρ c (Proc.devRef .tc main_v6) = Stages.col (F := Ideal) (m ((c.tc : Thread nD τ).loc main_arg1)) :=
  (W4_of_ne m ρ c main_v6 (by decide)).trans (W3_col m ρ c)
theorem W4_arg3 : W4 m ρ c (Proc.devRef .tc main_arg3) = (m ((c.tc : Thread nD τ).loc main_arg3)) := (W4_of_ne m ρ c main_arg3 (by decide)).trans (W3_arg3 m ρ c)
theorem W4_arg4 : W4 m ρ c (Proc.devRef .tc main_arg4) = (m ((c.tc : Thread nD τ).loc main_arg4)) := (W4_of_ne m ρ c main_arg4 (by decide)).trans (W3_arg4 m ρ c)
theorem W4_arg5 : W4 m ρ c (Proc.devRef .tc main_arg5) = (m ((c.tc : Thread nD τ).loc main_arg5)) := (W4_of_ne m ρ c main_arg5 (by decide)).trans (W3_arg5 m ρ c)
theorem W4_dc : W4 m ρ c (Proc.devRef .tc main_v15) = dcol m c :=
  (W4_arr m ρ c 2).trans (((dat0 (V3 m ρ) c).arrAt_in 2 rfl _).trans ((A_eq0 (V3 m ρ) c 2).trans (W3_dc m ρ c)))
/-- Region 0 leaves the first layer's features scaled by the source's `dinv`. -/
theorem W4_pre1 : W4 m ρ c (Proc.devRef .tc main_v16) = KStages.pre1 (m ((c.tc : Thread nD τ).loc main_arg0)) (m ((c.tc : Thread nD τ).loc main_arg2)) (dcol m c) := by
  refine (W4_arr m ρ c 3).trans ?_
  rw [region0_value]
  have h0 : V3 m ρ c main_arg0 = (m ((c.tc : Thread nD τ).loc main_arg0)) := W3_arg0 m ρ c
  have h2 : V3 m ρ c main_arg2 = (m ((c.tc : Thread nD τ).loc main_arg2)) := W3_arg2 m ρ c
  have h15 : V3 m ρ c main_v15 = dcol m c := W3_dc m ρ c
  rw [h0, h2, h15]; rfl

/-! ## At region 1's entry -/

theorem W5_row : W5 m ρ c (Proc.devRef .tc main_v3) = Stages.row (F := Ideal) (m ((c.tc : Thread nD τ).loc main_arg1)) := by
  show StableHlo.after hostOps1 (W4 m ρ c) (Proc.devRef .tc main_v3) = _
  after_results; exact W4_row m ρ c
theorem W5_col : W5 m ρ c (Proc.devRef .tc main_v6) = Stages.col (F := Ideal) (m ((c.tc : Thread nD τ).loc main_arg1)) := by
  show StableHlo.after hostOps1 (W4 m ρ c) (Proc.devRef .tc main_v6) = _
  after_results; exact W4_col m ρ c
theorem W5_dc : W5 m ρ c (Proc.devRef .tc main_v15) = dcol m c := by
  show StableHlo.after hostOps1 (W4 m ρ c) (Proc.devRef .tc main_v15) = _
  after_results; exact W4_dc m ρ c
theorem W5_arg4 : W5 m ρ c (Proc.devRef .tc main_arg4) = (m ((c.tc : Thread nD τ).loc main_arg4)) := by
  show StableHlo.after hostOps1 (W4 m ρ c) (Proc.devRef .tc main_arg4) = _
  after_results; exact W4_arg4 m ρ c
theorem W5_arg5 : W5 m ρ c (Proc.devRef .tc main_arg5) = (m ((c.tc : Thread nD τ).loc main_arg5)) := by
  show StableHlo.after hostOps1 (W4 m ρ c) (Proc.devRef .tc main_arg5) = _
  after_results; exact W4_arg5 m ρ c
theorem W5_b1row : W5 m ρ c (Proc.devRef .tc main_v27) = b1row m c := by
  show StableHlo.after hostOps1 (W4 m ρ c) (Proc.devRef .tc main_v27) = _
  after_results; rw [W4_arg3]; rfl
/-- The stretch before region 1 propagates region 0's array. -/
theorem W5_prop64 : W5 m ρ c (Proc.devRef .tc main_v26)
    = KStages.prop64 (KStages.pre1 (m ((c.tc : Thread nD τ).loc main_arg0)) (m ((c.tc : Thread nD τ).loc main_arg2)) (dcol m c)) (m ((c.tc : Thread nD τ).loc main_arg1)) := by
  show StableHlo.after hostOps1 (W4 m ρ c) (Proc.devRef .tc main_v26) = _
  after_results; rw [W4_row, W4_col, W4_pre1]; rfl

/-! ## At region 1's exit -/

theorem W6_row : W6 m ρ c (Proc.devRef .tc main_v3) = Stages.row (F := Ideal) (m ((c.tc : Thread nD τ).loc main_arg1)) :=
  (W6_of_ne m ρ c main_v3 (by decide)).trans (W5_row m ρ c)
theorem W6_col : W6 m ρ c (Proc.devRef .tc main_v6) = Stages.col (F := Ideal) (m ((c.tc : Thread nD τ).loc main_arg1)) :=
  (W6_of_ne m ρ c main_v6 (by decide)).trans (W5_col m ρ c)
theorem W6_arg5 : W6 m ρ c (Proc.devRef .tc main_arg5) = (m ((c.tc : Thread nD τ).loc main_arg5)) := (W6_of_ne m ρ c main_arg5 (by decide)).trans (W5_arg5 m ρ c)
theorem W6_dc : W6 m ρ c (Proc.devRef .tc main_v15) = dcol m c :=
  (W6_arr m ρ c 1).trans (((dat1 (V5 m ρ) c).arrAt_in 1 rfl _).trans ((A_eq1 (V5 m ρ) c 1).trans (W5_dc m ρ c)))
/-- Region 1 leaves the second layer's feature scaled by the source's `dinv`. -/
theorem W6_pre2 : W6 m ρ c (Proc.devRef .tc main_v28)
    = KStages.pre2 (KStages.prop64 (KStages.pre1 (m ((c.tc : Thread nD τ).loc main_arg0)) (m ((c.tc : Thread nD τ).loc main_arg2)) (dcol m c)) (m ((c.tc : Thread nD τ).loc main_arg1)))
        (dcol m c) (b1row m c) (m ((c.tc : Thread nD τ).loc main_arg4)) := by
  refine (W6_arr m ρ c 4).trans ?_
  rw [region1_value]
  have h26 : V5 m ρ c main_v26 = _ := W5_prop64 m ρ c
  have h15 : V5 m ρ c main_v15 = dcol m c := W5_dc m ρ c
  have h27 : V5 m ρ c main_v27 = b1row m c := W5_b1row m ρ c
  have h4 : V5 m ρ c main_arg4 = (m ((c.tc : Thread nD τ).loc main_arg4)) := W5_arg4 m ρ c
  rw [h26, h15, h27, h4]; rfl

/-! ## At region 2's entry -/

theorem W7_dc : W7 m ρ c (Proc.devRef .tc main_v15) = dcol m c := by
  show StableHlo.after hostOps2 (W6 m ρ c) (Proc.devRef .tc main_v15) = _
  after_results; exact W6_dc m ρ c
theorem W7_b2row : W7 m ρ c (Proc.devRef .tc main_v39) = b2row m c := by
  show StableHlo.after hostOps2 (W6 m ρ c) (Proc.devRef .tc main_v39) = _
  after_results; rw [W6_arg5]; rfl
/-- The stretch before region 2 propagates region 1's array. -/
theorem W7_prop1 : W7 m ρ c (Proc.devRef .tc main_v38)
    = KStages.prop1 (KStages.pre2 (KStages.prop64 (KStages.pre1 (m ((c.tc : Thread nD τ).loc main_arg0)) (m ((c.tc : Thread nD τ).loc main_arg2)) (dcol m c)) (m ((c.tc : Thread nD τ).loc main_arg1)))
        (dcol m c) (b1row m c) (m ((c.tc : Thread nD τ).loc main_arg4))) (m ((c.tc : Thread nD τ).loc main_arg1)) := by
  show StableHlo.after hostOps2 (W6 m ρ c) (Proc.devRef .tc main_v38) = _
  after_results; rw [W6_row, W6_col, W6_pre2]; rfl

/-! ## The result -/

/-- The result buffer ends at the kernel's network of the arguments. -/
theorem W8_out : W8 m ρ c (Proc.devRef .tc main_v40)
    = KStages.out (m ((c.tc : Thread nD τ).loc main_arg0)) (m ((c.tc : Thread nD τ).loc main_arg1)) (m ((c.tc : Thread nD τ).loc main_arg2)) (dcol m c) (b1row m c) (m ((c.tc : Thread nD τ).loc main_arg4)) (b2row m c) := by
  refine (W8_arr m ρ c 3).trans ?_
  rw [region2_value]
  have h38 : in38 (V7 m ρ) c = _ := W7_prop1 m ρ c
  have h15 : in15 (V7 m ρ) c = dcol m c := W7_dc m ρ c
  have h39 : in39 (V7 m ρ) c = b2row m c := W7_b2row m ρ c
  rw [h38, h15, h39]; rfl

end Cert.KernelIdeal.HandRun

end
-- ==== Proof.RefRun.lean ====
/-
  The reference program's run. Its `main` is a straight line of ninety host operations: the edge lists with the
  self loops appended (`row`, `col`), the degree of every node as a sum of ones scattered by `row`, its inverse
  square root where the degree is positive (`dinv`), the per-edge weight `dinv[row] * dinv[col]`, and twice
  "matrix product, gather by `col`, scale by the weight, sum into `row`, add the bias", with a maximum against
  zero between the two layers and `1 / (1 + exp (-v))` at the end.
  Here: the operations as a list, `main` as their sequence, and the run — every weakly fair execution terminates,
  and each buffer ends at the fold of the operations over the launch contents (`StableHlo.after`).
-/
import proofs.«100186_j29197187678384_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- `main`'s ninety operations, in program order (a called function's operations stand in its call's place). -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v3 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v6 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v6 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v3 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v6 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v6 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v6 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x1_S3300000x1_S3300000x1_1_0_n_n_0_1_11 x i) : (⟨S100000x1, .f32⟩ : BufTy).Contents (Elt F) → (⟨S3300000x1, .i32⟩ : BufTy).Contents (Elt F) → (⟨S3300000x1, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    binary main_v55 main_v56 main_v57 (mulf : (⟨S3300000x1, .f32⟩ : BufTy).Contents (Elt F) → (⟨S3300000x1, .f32⟩ : BufTy).Contents (Elt F) → (⟨S3300000x1, .f32⟩ : BufTy).Contents (Elt F)),
    nullary main_cst_11 (constant S_ .f32 0x00000000#32),
    unary main_cst_11 main_v58 (broadcastInDim S100000x1 ![] bcast_S_S100000x1 : (⟨S_, .f32⟩ : BufTy).Contents (Elt F) → (⟨S100000x1, .f32⟩ : BufTy).Contents (Elt F)),
    unary main_v3 main_v59 (broadcastInDim S3300000x1 ![0] bcast_S3300000_S3300000x1_0 : (⟨S3300000, .i32⟩ : BufTy).Contents (Elt F) → (⟨S3300000x1, .i32⟩ : BufTy).Contents (Elt F)),
    ternary main_v58 main_v59 main_v57 main_v60 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    unary main_arg5 main_v61 (broadcastInDim S1x1 ![1] bcast_S1_S1x1_1 : (⟨S1, .f32⟩ : BufTy).Contents (Elt F) → (⟨S1x1, .f32⟩ : BufTy).Contents (Elt F)),
    unary main_v61 main_v62 (broadcastInDim S100000x1 ![0, 1] bcast_S1x1_S100000x1_0_1 : (⟨S1x1, .f32⟩ : BufTy).Contents (Elt F) → (⟨S100000x1, .f32⟩ : BufTy).Contents (Elt F)),
    binary main_v60 main_v62 main_v63 (addf : (⟨S100000x1, .f32⟩ : BufTy).Contents (Elt F) → (⟨S100000x1, .f32⟩ : BufTy).Contents (Elt F) → (⟨S100000x1, .f32⟩ : BufTy).Contents (Elt F)),
    unary main_v63 main_v64 (Host.negf : (⟨S100000x1, .f32⟩ : BufTy).Contents (Elt F) → (⟨S100000x1, .f32⟩ : BufTy).Contents (Elt F)),
    unary main_v64 main_v65 (Host.exp : (⟨S100000x1, .f32⟩ : BufTy).Contents (Elt F) → (⟨S100000x1, .f32⟩ : BufTy).Contents (Elt F)),
    nullary main_cst_12 (constant S_ .f32 0x3F800000#32),
    unary main_cst_12 main_v66 (broadcastInDim S100000x1 ![] bcast_S_S100000x1 : (⟨S_, .f32⟩ : BufTy).Contents (Elt F) → (⟨S100000x1, .f32⟩ : BufTy).Contents (Elt F)),
    binary main_v66 main_v65 main_v67 (addf : (⟨S100000x1, .f32⟩ : BufTy).Contents (Elt F) → (⟨S100000x1, .f32⟩ : BufTy).Contents (Elt F) → (⟨S100000x1, .f32⟩ : BufTy).Contents (Elt F)),
    nullary main_cst_13 (constant S_ .f32 0x3F800000#32),
    unary main_cst_13 main_v68 (broadcastInDim S100000x1 ![] bcast_S_S100000x1 : (⟨S_, .f32⟩ : BufTy).Contents (Elt F) → (⟨S100000x1, .f32⟩ : BufTy).Contents (Elt F)),
    binary main_v68 main_v67 main_v69 (Host.divf : (⟨S100000x1, .f32⟩ : BufTy).Contents (Elt F) → (⟨S100000x1, .f32⟩ : BufTy).Contents (Elt F) → (⟨S100000x1, .f32⟩ : BufTy).Contents (Elt F)) ]

set_option maxRecDepth 8192 in
set_option maxHeartbeats 4000000 in

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- From any memory with zero counters every weakly fair execution of `main` terminates, and every buffer of every
    device ends at the operations' fold over that device's launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ

end Cert.ReferenceIdeal.HandRun

end
-- ==== Proof.RefValue.lean ====
/-
  The reference's result as a function of its arguments: folding the ninety operations over the launch contents
  leaves, at the result buffer, the network `Stages.out` of the six arguments, and leaves the arguments as they were.
  With the run of the operation list this is the reference's run with its value named, and (dropping the value) its frame.
-/
import proofs.«100186_j29197187678384_2_alg».proof.Proof.RefRun
import proofs.«100186_j29197187678384_2_alg».proof.Proof.GcnStages

set_option maxRecDepth 16384
-- the fold runs over ninety operations
set_option maxHeartbeats 4000000

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Gcn

variable {F : FTy → Type} [FloatOps F]

/-- The operations' fold at the result buffer is the network of the arguments. -/
theorem result_eq (m : (ℓ : Loc nD τ sig) → Buf (Elt F) ℓ) (c : Dev nD) :
    after (ops (F := F)) (launchContents m c) (Proc.devRef .tc main_v69)
      = Stages.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_results_simp <;> rfl

/-- Every weakly fair execution of the reference terminates with its result at the network of the arguments, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69)
        = Stages.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v69).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_after m ρ)

end Cert.ReferenceIdeal.HandRun

end
-- ==== Proof.GcnLayoutAt.lean ====
/- The layout operations of the two-layer graph convolution, each read at one index, on the extended reals.
   A dense product at `(n, d)` is the sum over the contracted coordinate of the products of the entries; a broadcast
   along new or unit axes reads the operand at the coordinates it keeps; a reshape that only adds a unit axis keeps the
   row-major position, so it reads the operand at the remaining coordinate; the arrays of the words of `0.0` and `1.0`
   read `0` and `1`. -/
import proofs.«100186_j29197187678384_2_alg».proof.Proof.GcnStages
import Idealize.ShloMosaic.Lib.Pipeline.Value
import Idealize.ShloMosaic.Lib.ValueIdx
import Idealize.ShloMosaic.Lib.IdealHost
import Idealize.ShloMosaic.PureOps.Ideal.Laws

noncomputable section

namespace Cert.Gcn.At

open Cert.ReferenceIdeal Cert.ReferenceIdeal.Gen Idealize.ShloMosaic Idealize.ShloMosaic.TcCoe Idealize.ShloMosaic.ValueIdx

/-! ## The two dense products, read at an index -/

/-- The first product's left index at output `i`: row `i 0` on the kept axis. -/
theorem dot1_lhs0 (i : S100000x64.Idx) (k : dot_S100000x128_S128x64_S100000x64_1_0_0_1_n_n.contr.Idx) :
    (dot_S100000x128_S128x64_S100000x64_1_0_0_1_n_n.lhsIdx i k 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- The first product's right index at output `i`: column `i 1` on the kept axis. -/
theorem dot1_rhs1 (i : S100000x64.Idx) (k : dot_S100000x128_S128x64_S100000x64_1_0_0_1_n_n.contr.Idx) :
    (dot_S100000x128_S128x64_S100000x64_1_0_0_1_n_n.rhsIdx i k 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- `x · w` at `(n, d)`: the sum over the contracted coordinate of the products of the entries. -/
theorem dot1_apply (x : S100000x128.Idx → EReal) (w : S128x64.Idx → EReal) (n : Fin 100000) (d : Fin 64) :
    Host.dotGeneral (F := Ideal) (φ₁ := .f32) (φ₂ := .f32) dot_S100000x128_S128x64_S100000x64_1_0_0_1_n_n none x w (ix2 n d) = ∑ k : Fin 128, x (ix2 n k) * w (ix2 k d) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 n d) ((contrEquiv1 dot_S100000x128_S128x64_S100000x64_1_0_0_1_n_n 128 rfl rfl).symm k) = ix2 n k := funext fun a => Fin.ext (by
    match a with
    | ⟨0, _⟩ => exact dot1_lhs0 _ _
    | ⟨1, _⟩ => exact (dot_S100000x128_S128x64_S100000x64_1_0_0_1_n_n.lhsIdx_val_of_single rfl _ _).trans hk)
  have er : dot_S100000x128_S128x64_S100000x64_1_0_0_1_n_n.rhsIdx (ix2 n d) ((contrEquiv1 dot_S100000x128_S128x64_S100000x64_1_0_0_1_n_n 128 rfl rfl).symm k) = ix2 k d := funext fun a => Fin.ext (by
    match a with
    | ⟨0, _⟩ => exact (dot_S100000x128_S128x64_S100000x64_1_0_0_1_n_n.rhsIdx_val_of_single rfl _ _).trans hk
    | ⟨1, _⟩ => exact dot1_rhs1 _ _)
  rw [el, er]

/-- The second product's left index at output `i`: row `i 0` on the kept axis. -/
theorem dot2_lhs0 (i : S100000x1.Idx) (k : dot_S100000x64_S64x1_S100000x1_1_0_0_1_n_n.contr.Idx) :
    (dot_S100000x64_S64x1_S100000x1_1_0_0_1_n_n.lhsIdx i k 0).val = (i 0).val := by
  unfold DotDims.lhsIdx
  rw [dif_neg (show ¬(0 : Fin S100000x64.rank) ∈ dot_S100000x64_S64x1_S100000x1_1_0_0_1_n_n.lhsBatch by decide), dif_pos (show (0 : Fin S100000x64.rank) ∈ dot_S100000x64_S64x1_S100000x1_1_0_0_1_n_n.lhsNonContracting by decide)]
  rfl
/-- The second product's right index at output `i`: column `i 1` on the kept axis. -/
theorem dot2_rhs1 (i : S100000x1.Idx) (k : dot_S100000x64_S64x1_S100000x1_1_0_0_1_n_n.contr.Idx) :
    (dot_S100000x64_S64x1_S100000x1_1_0_0_1_n_n.rhsIdx i k 1).val = (i 1).val := by
  unfold DotDims.rhsIdx
  rw [dif_neg (show ¬(1 : Fin S64x1.rank) ∈ dot_S100000x64_S64x1_S100000x1_1_0_0_1_n_n.rhsBatch by decide), dif_pos (show (1 : Fin S64x1.rank) ∈ dot_S100000x64_S64x1_S100000x1_1_0_0_1_n_n.rhsNonContracting by decide)]
  rfl

/-- `a · w` at `(n, 0)`: the sum over the contracted coordinate of the products of the entries. -/
theorem dot2_apply (a : S100000x64.Idx → EReal) (w : S64x1.Idx → EReal) (n : Fin 100000) :
    Host.dotGeneral (F := Ideal) (φ₁ := .f32) (φ₂ := .f32) dot_S100000x64_S64x1_S100000x1_1_0_0_1_n_n none a w (ix2 n 0) = ∑ d : Fin 64, a (ix2 n d) * w (ix2 d 0) := by
  simp only [Host.dotGeneral]
  rw [Ideal.dotGeneral_apply, ← Equiv.sum_comp (contrEquiv1 dot_S100000x64_S64x1_S100000x1_1_0_0_1_n_n 64 rfl rfl).symm]
  refine Finset.sum_congr rfl fun k _ => ?_
  have hk := contrEquiv1_symm_val dot_S100000x64_S64x1_S100000x1_1_0_0_1_n_n 64 rfl rfl k
  have el : dot_S100000x64_S64x1_S100000x1_1_0_0_1_n_n.lhsIdx (ix2 n (0 : Fin 1)) ((contrEquiv1 dot_S100000x64_S64x1_S100000x1_1_0_0_1_n_n 64 rfl rfl).symm k) = ix2 n k := funext fun ax => Fin.ext (by
    match ax with
    | ⟨0, _⟩ => exact dot2_lhs0 _ _
    | ⟨1, _⟩ => exact (dot_S100000x64_S64x1_S100000x1_1_0_0_1_n_n.lhsIdx_val_of_single rfl _ _).trans hk)
  have er : dot_S100000x64_S64x1_S100000x1_1_0_0_1_n_n.rhsIdx (ix2 n (0 : Fin 1)) ((contrEquiv1 dot_S100000x64_S64x1_S100000x1_1_0_0_1_n_n 64 rfl rfl).symm k) = ix2 k (0 : Fin 1) := funext fun ax => Fin.ext (by
    match ax with
    | ⟨0, _⟩ => exact (dot_S100000x64_S64x1_S100000x1_1_0_0_1_n_n.rhsIdx_val_of_single rfl _ _).trans hk
    | ⟨1, _⟩ => exact dot2_rhs1 _ _)
  rw [el, er]

/-! ## The broadcasts, read at an index -/

/-- A per-edge weight spread along a new unit axis reads, at `j`, the weight of edge `j 0`. -/
theorem edgeCol1_apply (w : S3300000.Idx → EReal) (j : S3300000x1.Idx) :
    broadcastInDim S3300000x1 ![0] bcast_S3300000_S3300000x1_0 w j = w (ix1 (j 0)) :=
  broadcastInDim_apply _ bcast_S3300000_S3300000x1_0 w j (ix1 (j 0)) (fun a => match a with
    | ⟨0, _⟩ => by show (j 0).val = if (3300000 : Nat) = 1 then 0 else (j 0).val; rw [if_neg (by decide)])

/-- A per-edge weight spread over the 64 features reads, at `j`, the weight of edge `j 0`. -/
theorem edgeCol64_apply (w : S3300000.Idx → EReal) (j : S3300000x64.Idx) :
    broadcastInDim S3300000x64 ![0, 1] bcast_S3300000x1_S3300000x64_0_1 (broadcastInDim S3300000x1 ![0] bcast_S3300000_S3300000x1_0 w) j = w (ix1 (j 0)) := by
  have h1 : broadcastInDim S3300000x64 ![0, 1] bcast_S3300000x1_S3300000x64_0_1 (broadcastInDim S3300000x1 ![0] bcast_S3300000_S3300000x1_0 w) j
      = broadcastInDim S3300000x1 ![0] bcast_S3300000_S3300000x1_0 w (ix2 (j 0) (0 : Fin 1)) :=
    broadcastInDim_apply _ bcast_S3300000x1_S3300000x64_0_1 (broadcastInDim S3300000x1 ![0] bcast_S3300000_S3300000x1_0 w) j (ix2 (j 0) (0 : Fin 1)) (fun a => match a with
      | ⟨0, _⟩ => by show (j 0).val = if (3300000 : Nat) = 1 then 0 else (j 0).val; rw [if_neg (by decide)]
      | ⟨1, _⟩ => by show (0 : Nat) = if (1 : Nat) = 1 then 0 else (j 1).val; rw [if_pos rfl])
  exact h1.trans (edgeCol1_apply w (ix2 (j 0) (0 : Fin 1)))

/-- The 64 biases spread over the rows read, at `(n, d)`, bias `d`. -/
theorem bias64_apply (b : S64.Idx → EReal) (n : Fin 100000) (d : Fin 64) :
    broadcastInDim S100000x64 ![0, 1] bcast_S1x64_S100000x64_0_1 (broadcastInDim S1x64 ![1] bcast_S64_S1x64_1 b) (ix2 n d) = b (ix1 d) := by
  have h1 : broadcastInDim S100000x64 ![0, 1] bcast_S1x64_S100000x64_0_1 (broadcastInDim S1x64 ![1] bcast_S64_S1x64_1 b) (ix2 n d)
      = broadcastInDim S1x64 ![1] bcast_S64_S1x64_1 b (ix2 (0 : Fin 1) d) :=
    broadcastInDim_apply _ bcast_S1x64_S100000x64_0_1 (broadcastInDim S1x64 ![1] bcast_S64_S1x64_1 b) (ix2 n d) (ix2 (0 : Fin 1) d) (fun a => match a with
      | ⟨0, _⟩ => by show (0 : Nat) = if (1 : Nat) = 1 then 0 else n.val; rw [if_pos rfl]
      | ⟨1, _⟩ => by show d.val = if (64 : Nat) = 1 then 0 else d.val; rw [if_neg (by decide)])
  refine h1.trans ?_
  exact broadcastInDim_apply _ bcast_S64_S1x64_1 b (ix2 (0 : Fin 1) d) (ix1 d) (fun a => match a with
    | ⟨0, _⟩ => by show d.val = if (64 : Nat) = 1 then 0 else d.val; rw [if_neg (by decide)])

/-- The one bias spread over the rows reads, at `(n, 0)`, that bias. -/
theorem bias1_apply (b : S1.Idx → EReal) (n : Fin 100000) :
    broadcastInDim S100000x1 ![0, 1] bcast_S1x1_S100000x1_0_1 (broadcastInDim S1x1 ![1] bcast_S1_S1x1_1 b) (ix2 n 0) = b (ix1 0) := by
  have h1 : broadcastInDim S100000x1 ![0, 1] bcast_S1x1_S100000x1_0_1 (broadcastInDim S1x1 ![1] bcast_S1_S1x1_1 b) (ix2 n (0 : Fin 1))
      = broadcastInDim S1x1 ![1] bcast_S1_S1x1_1 b (ix2 (0 : Fin 1) (0 : Fin 1)) :=
    broadcastInDim_apply _ bcast_S1x1_S100000x1_0_1 (broadcastInDim S1x1 ![1] bcast_S1_S1x1_1 b) (ix2 n (0 : Fin 1)) (ix2 (0 : Fin 1) (0 : Fin 1)) (fun a => match a with
      | ⟨0, _⟩ => by show (0 : Nat) = if (1 : Nat) = 1 then 0 else n.val; rw [if_pos rfl]
      | ⟨1, _⟩ => by show (0 : Nat) = if (1 : Nat) = 1 then 0 else 0; rw [if_pos rfl])
  refine h1.trans ?_
  exact broadcastInDim_apply _ bcast_S1_S1x1_1 b (ix2 (0 : Fin 1) (0 : Fin 1)) (ix1 (0 : Fin 1)) (fun a => match a with
    | ⟨0, _⟩ => by show (0 : Nat) = if (1 : Nat) = 1 then 0 else 0; rw [if_pos rfl])

/-! ## The reshapes that add a unit axis, read at an index -/

/-- A length-100000 vector viewed as a column reads, at `(n, 0)`, entry `n`. -/
theorem column_apply (D : (⟨1, ![100000]⟩ : Shape).Idx → EReal) (h : (⟨1, ![100000]⟩ : Shape).ShapeCasts ⟨2, ![100000, 1]⟩) (n : Fin 100000) :
    shapeCast ⟨2, ![100000, 1]⟩ D h (ix2 n (0 : Fin 1)) = D (ix1 n) :=
  shapeCast_apply D h (ix2 n (0 : Fin 1)) (ix1 n) (by
    rw [Shape.rowMajor_val_one, Shape.rowMajor_val_two]
    show n.val = n.val * 1 + 0
    omega)

/-- A length-64 vector viewed as a row reads, at `(0, d)`, entry `d`. -/
theorem row64_apply (b : (⟨1, ![64]⟩ : Shape).Idx → EReal) (h : (⟨1, ![64]⟩ : Shape).ShapeCasts ⟨2, ![1, 64]⟩) (d : Fin 64) :
    shapeCast ⟨2, ![1, 64]⟩ b h (ix2 (0 : Fin 1) d) = b (ix1 d) :=
  shapeCast_apply b h (ix2 (0 : Fin 1) d) (ix1 d) (by
    rw [Shape.rowMajor_val_one, Shape.rowMajor_val_two]
    show d.val = 0 * 64 + d.val
    omega)

/-- A length-1 vector viewed as a 1 × 1 array reads its one entry. -/
theorem row1_apply (b : (⟨1, ![1]⟩ : Shape).Idx → EReal) (h : (⟨1, ![1]⟩ : Shape).ShapeCasts ⟨2, ![1, 1]⟩) :
    shapeCast ⟨2, ![1, 1]⟩ b h (ix2 (0 : Fin 1) (0 : Fin 1)) = b (ix1 (0 : Fin 1)) :=
  shapeCast_apply b h (ix2 (0 : Fin 1) (0 : Fin 1)) (ix1 (0 : Fin 1)) (by
    rw [Shape.rowMajor_val_one, Shape.rowMajor_val_two]
    show (0 : Nat) = 0 * 1 + 0
    omega)

/-! ## The constant arrays -/

/-- The array of zeros reads `0` everywhere. -/
theorem zeros_apply (s : Shape) (h : S_.BroadcastsInDim s (![] : Fin 0 → Fin s.rank)) (i : s.Idx) :
    Stages.zeros (F := Ideal) s h i = (0 : EReal) := by
  unfold Stages.zeros
  refine (broadcastInDim_apply ![] h (constant (F := Ideal) S_ .f32 0x00000000#32) i ix0 (fun a => a.elim0)).trans ?_
  rw [constant_apply, Ideal.ofBits_zero_f32]

/-- The array of ones reads `1` everywhere. -/
theorem ones_apply (s : Shape) (h : S_.BroadcastsInDim s (![] : Fin 0 → Fin s.rank)) (i : s.Idx) :
    Stages.ones (F := Ideal) s h i = (1 : EReal) := by
  unfold Stages.ones
  refine (broadcastInDim_apply ![] h (constant (F := Ideal) S_ .f32 0x3F800000#32) i ix0 (fun a => a.elim0)).trans ?_
  rw [constant_apply, Ideal.ofBits_one_f32]

end Cert.Gcn.At

end
-- ==== Proof.LibGatherScatterRows.lean ====
/-
  Row gathers and row scatters read at an index: `stablehlo.gather` / `"stablehlo.scatter"` along axis 0 of a one- or
  two-axis operand with a column `[E, 1]` of start indices (collapsed / inserted axis 0, start index map `[0]`, index
  vector on axis 1, no batching axes). A gathered element is the operand's at the start index read signed and clamped
  into the rows (`clampRow`); an update lands on row `r` exactly when its scatter index, read signed, is `r`.
  Stated for arbitrary dimension-number records over literal shapes, the records' fields as hypotheses.
-/
import Idealize.ShloMosaic.Lib.ValueIdx

namespace Idealize.ShloMosaic.GatherScatterRows

open Idealize.ShloMosaic Idealize.ShloMosaic.ValueIdx

/-- A start index read signed and clamped into the rows `[0, N − 1]`. -/
def clampRow {w : Nat} (N : Nat) (v : BitVec w) : Nat := min v.toInt.toNat (N - 1)

/-- The clamped row is a row. -/
theorem clampRow_lt {w : Nat} {N : Nat} (hN : 0 < N) (v : BitVec w) : clampRow N v < N := by
  unfold clampRow; omega

/-- **A row gather of a two-axis operand, read at an index.** `stablehlo.gather` of an operand `[N, C]` at start
    indices `[E, 1]` with offset_dims `[1]`, collapsed_slice_dims `[0]`, start_index_map `[0]`, index_vector_dim 1 and
    no batching axes: result element `(e, k)` is the operand at row `idx[e, 0]` (read signed, clamped into
    `[0, N − 1]`) and column `k`. -/
theorem gather_rows2_apply {α : Type} {N C E w : Nat} (hN : 0 < N)
    (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (x : (⟨2, ![N, C]⟩ : Shape).Idx → α) (idx : IVec ⟨2, ![E, 1]⟩ w) (y : (⟨2, ![E, C]⟩ : Shape).Idx) :
    Host.gather d x idx y = x (ix2 ⟨clampRow N (idx (ix2 (y 0) 0)), clampRow_lt hN _⟩ (y 1)) := by
  have hs0 : d.sliceSizes 0 = 1 := d.slice_collapsed 0 (by rw [hc]; exact List.mem_singleton.mpr rfl)
  obtain ⟨od, cd, ob, sb, sm, iv, ss, wf⟩ := d
  dsimp only at ho hc hb hsb hm hv hs0
  subst ho hc hb hsb hm hv
  unfold Host.gather
  congr 1
  funext a
  refine Fin.ext ?_
  match a with
  | ⟨0, _⟩ =>
    show GatherDims.start _ y idx 0 + GatherDims.batchCoord _ y 0 + GatherDims.offCoord _ y 0 = clampRow N _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![E, 1]⟩) (t := ⟨2, ![E, C]⟩)
        ⟨[1], [0], [], [], [0], 1, ss, wf⟩ y ⟨List.idxOf (0 : Fin 2) [0],
          List.idxOf_lt_length_iff.2 (List.mem_singleton.mpr rfl)⟩ = ix2 (y 0) 0 := by
      funext b; refine Fin.ext ?_
      match b with
      | ⟨0, _⟩ => rfl
      | ⟨1, _⟩ => rfl
    show min (idx (GatherDims.siIdx (s := ⟨2, ![N, C]⟩) (si := ⟨2, ![E, 1]⟩) (t := ⟨2, ![E, C]⟩)
        ⟨[1], [0], [], [], [0], 1, ss, wf⟩ y ⟨List.idxOf (0 : Fin 2) [0], _⟩)).toInt.toNat (N - ss 0) = _
    rw [hsi, hs0]
    rfl
  | ⟨1, _⟩ =>
    show GatherDims.start _ y idx 1 + GatherDims.batchCoord _ y 1 + GatherDims.offCoord _ y 1 = (y 1).val
    rw [GatherDims.batchCoord_eq_zero _ _ _ List.not_mem_nil]
    unfold GatherDims.start
    rw [dif_neg (fun h => absurd (congrArg Fin.val (List.mem_singleton.mp h)) Nat.one_ne_zero)]
    unfold GatherDims.offCoord
    rw [dif_pos ((GatherDims.mem_sKept _ _).mpr
      ⟨fun h => absurd (congrArg Fin.val (List.mem_singleton.mp h)) Nat.one_ne_zero, List.not_mem_nil⟩)]
    simp only [Nat.zero_add]
    rfl

/-- **A row gather of a one-axis operand, read at an index.** `stablehlo.gather` of an operand `[N]` at start indices
    `[E, 1]` with offset_dims `[]`, collapsed_slice_dims `[0]`, start_index_map `[0]`, index_vector_dim 1 and no
    batching axes: result element `e` is the operand at `idx[e, 0]`, read signed and clamped into `[0, N − 1]`. -/
theorem gather_rows1_apply {α : Type} {N E w : Nat} (hN : 0 < N)
    (d : GatherDims ⟨1, ![N]⟩ ⟨2, ![E, 1]⟩ ⟨1, ![E]⟩)
    (ho : d.offsetDims = []) (hc : d.collapsedSliceDims = [0]) (hb : d.operandBatchingDims = [])
    (hsb : d.startIndicesBatchingDims = []) (hm : d.startIndexMap = [0]) (hv : d.indexVectorDim = 1)
    (x : (⟨1, ![N]⟩ : Shape).Idx → α) (idx : IVec ⟨2, ![E, 1]⟩ w) (y : (⟨1, ![E]⟩ : Shape).Idx) :
    Host.gather d x idx y = x (ix1 ⟨clampRow N (idx (ix2 (y 0) 0)), clampRow_lt hN _⟩) := by
  have hs0 : d.sliceSizes 0 = 1 := d.slice_collapsed 0 (by rw [hc]; exact List.mem_singleton.mpr rfl)
  obtain ⟨od, cd, ob, sb, sm, iv, ss, wf⟩ := d
  dsimp only at ho hc hb hsb hm hv hs0
  subst ho hc hb hsb hm hv
  unfold Host.gather
  congr 1
  funext a
  refine Fin.ext ?_
  match a with
  | ⟨0, _⟩ =>
    show GatherDims.start _ y idx 0 + GatherDims.batchCoord _ y 0 + GatherDims.offCoord _ y 0 = clampRow N _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨1, ![N]⟩) (si := ⟨2, ![E, 1]⟩) (t := ⟨1, ![E]⟩)
        ⟨[], [0], [], [], [0], 1, ss, wf⟩ y ⟨List.idxOf (0 : Fin 1) [0],
          List.idxOf_lt_length_iff.2 (List.mem_singleton.mpr rfl)⟩ = ix2 (y 0) 0 := by
      funext b; refine Fin.ext ?_
      match b with
      | ⟨0, _⟩ => rfl
      | ⟨1, _⟩ => rfl
    show min (idx (GatherDims.siIdx (s := ⟨1, ![N]⟩) (si := ⟨2, ![E, 1]⟩) (t := ⟨1, ![E]⟩)
        ⟨[], [0], [], [], [0], 1, ss, wf⟩ y ⟨List.idxOf (0 : Fin 1) [0], _⟩)).toInt.toNat (N - ss 0) = _
    rw [hsi, hs0]
    rfl

/-- An axis is kept exactly when it is not one of the removed axes. -/
theorem mem_kept {s : Shape} (axes : List (Fin s.rank)) (a : Fin s.rank) : a ∈ s.kept axes ↔ a ∉ axes := by
  simp [Shape.kept, List.mem_filter, List.mem_finRange]

/-- An axis of a two-axis shape is axis 0 or axis 1. -/
theorem axis2_cases {sz : Fin 2 → Nat} (a : Fin (Shape.rank ⟨2, sz⟩)) : a = 0 ∨ a = 1 := by
  rcases a with ⟨_ | _ | n, h⟩
  · exact Or.inl rfl
  · exact Or.inr rfl
  · exact absurd h (by show ¬ (n + 2 < 2); omega)

/-- **Where a row scatter of a two-axis operand lands.** For `stablehlo.scatter` into an operand `[N, C]` at scatter
    indices `[E, 1]` with updates `[E, C]`, update_window_dims `[1]`, inserted_window_dims `[0]`,
    scatter_dims_to_operand_dims `[0]` and index_vector_dim 1: update `(e, k)` lands at operand index `i` exactly
    when its scatter index `idx[e, 0]`, read signed, is `i`'s row (so it is a row: not negative, below `N`) and `k` is
    `i`'s column. -/
theorem scatter_rows2_resultIdx {N C E w : Nat}
    (d : ScatterDims ⟨2, ![N, C]⟩ ⟨2, ![E, 1]⟩ ⟨2, ![E, C]⟩)
    (hu : d.updateWindowDims = [1]) (hi : d.insertedWindowDims = [0])
    (hs : d.scatterDimsToOperandDims = [0]) (hv : d.indexVectorDim = 1)
    (idx : IVec ⟨2, ![E, 1]⟩ w) (j : (⟨2, ![E, C]⟩ : Shape).Idx) (i : (⟨2, ![N, C]⟩ : Shape).Idx) :
    d.resultIdx? j idx = some i ↔ ((idx (ix2 (j 0) 0)).toInt = ((i 0).val : Int) ∧ j 1 = i 1) := by
  obtain ⟨uw, iw, sd, iv, wf⟩ := d
  dsimp only at hu hi hs hv
  subst hu hi hs hv
  have hst0 : ScatterDims.start (s := ⟨2, ![N, C]⟩) (si := ⟨2, ![E, 1]⟩) (u := ⟨2, ![E, C]⟩) ⟨[1], [0], [0], 1, wf⟩ j idx 0 = (idx (ix2 (j 0) 0)).toInt := by
    unfold ScatterDims.start
    rw [dif_pos (List.mem_singleton.mpr rfl)]
    refine congrArg (fun q => (idx q).toInt) ?_
    funext b; refine Fin.ext ?_
    match b with
    | ⟨0, _⟩ => rfl
    | ⟨1, _⟩ => rfl
  have hst1 : ScatterDims.start (s := ⟨2, ![N, C]⟩) (si := ⟨2, ![E, 1]⟩) (u := ⟨2, ![E, C]⟩) ⟨[1], [0], [0], 1, wf⟩ j idx 1 = 0 := by
    unfold ScatterDims.start
    rw [dif_neg (fun h => absurd (congrArg Fin.val (List.mem_singleton.mp h)) Nat.one_ne_zero)]
  have hw0 : ScatterDims.window (s := ⟨2, ![N, C]⟩) (si := ⟨2, ![E, 1]⟩) (u := ⟨2, ![E, C]⟩) ⟨[1], [0], [0], 1, wf⟩ j 0 = 0 := by
    unfold ScatterDims.window
    rw [dif_neg (fun h => (mem_kept _ _).mp h (List.mem_singleton.mpr rfl))]
  have hw1 : ScatterDims.window (s := ⟨2, ![N, C]⟩) (si := ⟨2, ![E, 1]⟩) (u := ⟨2, ![E, C]⟩) ⟨[1], [0], [0], 1, wf⟩ j 1 = (j 1).val := by
    unfold ScatterDims.window
    rw [dif_pos ((mem_kept _ _).mpr (fun h => absurd (congrArg Fin.val (List.mem_singleton.mp h)) Nat.one_ne_zero))]
    rfl
  have hi0 : (i 0).val < N := (i 0).isLt
  have hi1 : (i 1).val < C := (i 1).isLt
  have hj1 : (j 1).val < C := (j 1).isLt
  unfold ScatterDims.resultIdx?
  constructor
  · intro h
    split at h
    · rename_i hall
      have h' := Option.some.inj h
      have e0 : (ScatterDims.start (s := ⟨2, ![N, C]⟩) (si := ⟨2, ![E, 1]⟩) (u := ⟨2, ![E, C]⟩) ⟨[1], [0], [0], 1, wf⟩ j idx 0 + (ScatterDims.window (s := ⟨2, ![N, C]⟩) (si := ⟨2, ![E, 1]⟩) (u := ⟨2, ![E, C]⟩) ⟨[1], [0], [0], 1, wf⟩ j 0 : Nat)).toNat = (i 0).val := congrArg Fin.val (congrFun h' 0)
      have e1 : (ScatterDims.start (s := ⟨2, ![N, C]⟩) (si := ⟨2, ![E, 1]⟩) (u := ⟨2, ![E, C]⟩) ⟨[1], [0], [0], 1, wf⟩ j idx 1 + (ScatterDims.window (s := ⟨2, ![N, C]⟩) (si := ⟨2, ![E, 1]⟩) (u := ⟨2, ![E, C]⟩) ⟨[1], [0], [0], 1, wf⟩ j 1 : Nat)).toNat = (i 1).val := congrArg Fin.val (congrFun h' 1)
      have c0 := (hall 0).1
      rw [hst0, hw0] at e0 c0
      rw [hst1, hw1] at e1
      refine ⟨by omega, Fin.ext (by omega)⟩
    · exact absurd h (by simp)
  · rintro ⟨h0, h1⟩
    have h1' : (j 1).val = (i 1).val := congrArg Fin.val h1
    have hall : ∀ a, 0 ≤ ScatterDims.start (s := ⟨2, ![N, C]⟩) (si := ⟨2, ![E, 1]⟩) (u := ⟨2, ![E, C]⟩) ⟨[1], [0], [0], 1, wf⟩ j idx a + (ScatterDims.window (s := ⟨2, ![N, C]⟩) (si := ⟨2, ![E, 1]⟩) (u := ⟨2, ![E, C]⟩) ⟨[1], [0], [0], 1, wf⟩ j a : Nat) ∧ ScatterDims.start (s := ⟨2, ![N, C]⟩) (si := ⟨2, ![E, 1]⟩) (u := ⟨2, ![E, C]⟩) ⟨[1], [0], [0], 1, wf⟩ j idx a + (ScatterDims.window (s := ⟨2, ![N, C]⟩) (si := ⟨2, ![E, 1]⟩) (u := ⟨2, ![E, C]⟩) ⟨[1], [0], [0], 1, wf⟩ j a : Nat) < ((⟨2, ![N, C]⟩ : Shape).size a : Nat) := by
      intro a
      rcases axis2_cases a with rfl | rfl
      · rw [hst0, hw0]
        show 0 ≤ (idx (ix2 (j 0) 0)).toInt + ((0 : Nat) : Int) ∧ (idx (ix2 (j 0) 0)).toInt + ((0 : Nat) : Int) < (N : Int)
        omega
      · rw [hst1, hw1]
        show 0 ≤ (0 : Int) + ((j 1).val : Int) ∧ (0 : Int) + ((j 1).val : Int) < (C : Int)
        omega
    rw [dif_pos hall]
    refine congrArg some (funext fun a => Fin.ext ?_)
    rcases axis2_cases a with rfl | rfl
    · dsimp only
      rw [hst0, hw0]
      omega
    · dsimp only
      rw [hst1, hw1]
      omega

/-- A one-axis shape's only axis is axis 0. -/
theorem axis1_cases {sz : Fin 1 → Nat} (a : Fin (Shape.rank ⟨1, sz⟩)) : a = 0 := by
  rcases a with ⟨_ | n, h⟩
  · rfl
  · exact absurd h (by show ¬ (n + 1 < 1); omega)

/-- **Where a row scatter of a one-axis operand lands.** For `stablehlo.scatter` into an operand `[N]` at scatter
    indices `[E, 1]` with updates `[E]`, update_window_dims `[]`, inserted_window_dims `[0]`,
    scatter_dims_to_operand_dims `[0]` and index_vector_dim 1: update `e` lands at operand index `i` exactly when its
    scatter index `idx[e, 0]`, read signed, is `i` (so it is an index: not negative, below `N`). -/
theorem scatter_rows1_resultIdx {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (idx : IVec ⟨2, ![E, 1]⟩ w) (j : (⟨1, ![E]⟩ : Shape).Idx) (i : (⟨1, ![N]⟩ : Shape).Idx) :
    d.resultIdx? j idx = some i ↔ (idx (ix2 (j 0) 0)).toInt = ((i 0).val : Int) := by
  obtain ⟨uw, iw, sd, iv, wf⟩ := d
  dsimp only at hu hi hs hv
  subst hu hi hs hv
  have hst0 : ScatterDims.start (s := ⟨1, ![N]⟩) (si := ⟨2, ![E, 1]⟩) (u := ⟨1, ![E]⟩) ⟨[], [0], [0], 1, wf⟩ j idx 0 = (idx (ix2 (j 0) 0)).toInt := by
    unfold ScatterDims.start
    rw [dif_pos (List.mem_singleton.mpr rfl)]
    refine congrArg (fun q => (idx q).toInt) ?_
    funext b; refine Fin.ext ?_
    match b with
    | ⟨0, _⟩ => rfl
    | ⟨1, _⟩ => rfl
  have hw0 : ScatterDims.window (s := ⟨1, ![N]⟩) (si := ⟨2, ![E, 1]⟩) (u := ⟨1, ![E]⟩) ⟨[], [0], [0], 1, wf⟩ j 0 = 0 := by
    unfold ScatterDims.window
    rw [dif_neg (fun h => (mem_kept _ _).mp h (List.mem_singleton.mpr rfl))]
  have hi0 : (i 0).val < N := (i 0).isLt
  unfold ScatterDims.resultIdx?
  constructor
  · intro h
    split at h
    · rename_i hall
      have h' := Option.some.inj h
      have e0 : (ScatterDims.start (s := ⟨1, ![N]⟩) (si := ⟨2, ![E, 1]⟩) (u := ⟨1, ![E]⟩) ⟨[], [0], [0], 1, wf⟩ j idx 0 + (ScatterDims.window (s := ⟨1, ![N]⟩) (si := ⟨2, ![E, 1]⟩) (u := ⟨1, ![E]⟩) ⟨[], [0], [0], 1, wf⟩ j 0 : Nat)).toNat = (i 0).val := congrArg Fin.val (congrFun h' 0)
      have c0 := (hall 0).1
      rw [hst0, hw0] at e0 c0
      omega
    · exact absurd h (by simp)
  · intro h0
    have hall : ∀ a, 0 ≤ ScatterDims.start (s := ⟨1, ![N]⟩) (si := ⟨2, ![E, 1]⟩) (u := ⟨1, ![E]⟩) ⟨[], [0], [0], 1, wf⟩ j idx a + (ScatterDims.window (s := ⟨1, ![N]⟩) (si := ⟨2, ![E, 1]⟩) (u := ⟨1, ![E]⟩) ⟨[], [0], [0], 1, wf⟩ j a : Nat) ∧ ScatterDims.start (s := ⟨1, ![N]⟩) (si := ⟨2, ![E, 1]⟩) (u := ⟨1, ![E]⟩) ⟨[], [0], [0], 1, wf⟩ j idx a + (ScatterDims.window (s := ⟨1, ![N]⟩) (si := ⟨2, ![E, 1]⟩) (u := ⟨1, ![E]⟩) ⟨[], [0], [0], 1, wf⟩ j a : Nat) < ((⟨1, ![N]⟩ : Shape).size a : Nat) := by
      intro a
      obtain rfl := axis1_cases a
      rw [hst0, hw0]
      show 0 ≤ (idx (ix2 (j 0) 0)).toInt + ((0 : Nat) : Int) ∧ (idx (ix2 (j 0) 0)).toInt + ((0 : Nat) : Int) < (N : Int)
      omega
    rw [dif_pos hall]
    refine congrArg some (funext fun a => Fin.ext ?_)
    obtain rfl := axis1_cases a
    dsimp only
    rw [hst0, hw0]
    omega

end Idealize.ShloMosaic.GatherScatterRows
-- ==== Proof.LibEdgeSum.lean ====
/-
  The one law that joins the two programs. A graph convolution sums, over the edges `e` that end in node `i`,
  the source's feature times the edge weight `dinv (row e) * dinv (col e)`. Since `row e = i` on exactly those
  edges, the factor `dinv i` is common to every term and may be taken out of the sum:

      (∑ e, a e * dinv (col e)) * dinv i = ∑ e, a e * (dinv (row e) * dinv (col e)).

  On the extended reals a product does not distribute over a sum in general (`⊤ + ⊥`), but it does when every
  term is a real number; so the law is stated for terms that are real, and "being real" is carried along as a
  predicate closed under the operations the programs use.
-/
import Idealize.ShloMosaic.PureOps.Ideal

namespace Cert.Gcn

/-- An extended real that is a real number (neither infinity). -/
def IsReal (x : EReal) : Prop := ∃ r : ℝ, x = (r : EReal)

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem IsReal.sum {ι : Type*} (s : Finset ι) (f : ι → EReal) (h : ∀ j ∈ s, IsReal (f j)) : IsReal (∑ j ∈ s, f j) :=
  Finset.sum_induction f IsReal (fun _ _ => IsReal.add) IsReal.zero h

/-- Among real numbers the product distributes over the sum. -/
theorem add_mul_of_isReal {x y c : EReal} (hx : IsReal x) (hy : IsReal y) (hc : IsReal c) : (x + y) * c = x * c + y * c := by
  obtain ⟨a, rfl⟩ := hx; obtain ⟨b, rfl⟩ := hy; obtain ⟨k, rfl⟩ := hc
  rw [← EReal.coe_add, ← EReal.coe_mul, ← EReal.coe_mul, ← EReal.coe_mul, ← EReal.coe_add, add_mul]

/-- A real factor goes inside a finite sum of real terms. -/
theorem sum_mul_of_isReal {ι : Type*} (s : Finset ι) (f : ι → EReal) (c : EReal) (hf : ∀ j ∈ s, IsReal (f j)) (hc : IsReal c) :
    (∑ j ∈ s, f j) * c = ∑ j ∈ s, f j * c := by
  classical
  revert hf
  refine Finset.induction_on s (fun _ => by simp) ?_
  intro a s ha ih hf
  have hs : ∀ j ∈ s, IsReal (f j) := fun j hj => hf j (Finset.mem_insert_of_mem hj)
  rw [Finset.sum_insert ha, Finset.sum_insert ha,
    add_mul_of_isReal (hf a (Finset.mem_insert_self a s)) (IsReal.sum s f hs) hc, ih hs]

/-- THE EDGE-SUM LAW. Over the edges `j` of a set `s` (those ending in one node), with source terms `a j`, source
    factors `δc j`, destination factors `δr j` all equal to the node's own factor `D`: scaling every source term
    by `δc`, summing, and scaling the sum by `D` is summing the terms scaled by the edge weight `δr j * δc j`.
    (Both sums start from `0`, as the programs' do.) -/
theorem edge_sum_law {ι : Type*} (s : Finset ι) (a δc δr : ι → EReal) (D : EReal)
    (ha : ∀ j ∈ s, IsReal (a j)) (hδ : ∀ j ∈ s, IsReal (δc j)) (hD : IsReal D) (hr : ∀ j ∈ s, δr j = D) :
    (0 + ∑ j ∈ s, a j * δc j) * D = 0 + ∑ j ∈ s, a j * (δr j * δc j) := by
  rw [zero_add, zero_add, sum_mul_of_isReal s _ D (fun j hj => (ha j hj).mul (hδ j hj)) hD]
  refine Finset.sum_congr rfl fun j hj => ?_
  rw [hr j hj, mul_assoc, mul_comm (δc j) D]

end Cert.Gcn
-- ==== Proof.GcnAbstract.lean ====
/-
  The two arrangements of the network over ABSTRACT data: an arbitrary per-node factor `D` (in the programs:
  `dinv`), an arbitrary column `rowI` of scatter indices and arbitrary columns `srcI`, `dstI` of gather indices.
  All that is used of them:
  * `D` is a real number at every node;
  * an update that lands on node `n` gathers its destination factor from `n`: `gdst (j 0) = n`.
  Under these, and for real inputs, the kernel's arrangement (scale by the source's factor, propagate bare, scale
  by the destination's factor) and the reference's (propagate with the edge weight `D dst * D src`) agree, by the
  edge-sum law; the layers' biases, the maximum against zero and the logistic are the same on both sides.
-/
import proofs.«100186_j29197187678384_2_alg».proof.Proof.GcnKernelStages
import proofs.«100186_j29197187678384_2_alg».proof.Proof.GcnLayoutAt
import proofs.«100186_j29197187678384_2_alg».proof.Proof.LibGatherScatterRows
import proofs.«100186_j29197187678384_2_alg».proof.Proof.LibEdgeSum
import Idealize.ShloMosaic.Lib.Pipeline.Value
import Idealize.ShloMosaic.Lib.ValueIdx
import Idealize.ShloMosaic.PureOps.Ideal.Laws

noncomputable section

namespace Cert.Gcn.Abs

open Cert.ReferenceIdeal Cert.ReferenceIdeal.Gen Idealize.ShloMosaic Idealize.ShloMosaic.TcCoe
open Idealize.ShloMosaic.ValueIdx Idealize.ShloMosaic.GatherScatterRows
open Cert.Gcn Cert.Gcn.Stages Cert.Gcn.At

variable (D : S100000.Idx → EReal) (rowI srcI dstI : S3300000x1.Idx → BitVec 32)

/-- The node edge `e` gathers its source from. -/
def gsrc (e : Fin 3300000) : Fin 100000 := ⟨clampRow 100000 (srcI (ix2 e 0)), clampRow_lt (by decide) _⟩
/-- The node edge `e` gathers its destination factor from. -/
def gdst (e : Fin 3300000) : Fin 100000 := ⟨clampRow 100000 (dstI (ix2 e 0)), clampRow_lt (by decide) _⟩

/-! ## The operators -/

/-- The edge weight. -/
def normP : S3300000.Idx → EReal :=
  mulf (F := Ideal) (φ := .f32) (Host.gather gather_S100000_S3300000x1_S3300000_n_0_n_n_0_1_1 D dstI)
    (Host.gather gather_S100000_S3300000x1_S3300000_n_0_n_n_0_1_1 D srcI)

/-- Weighted propagation of 64 features. -/
def conv64P (h : S100000x64.Idx → EReal) : S100000x64.Idx → EReal :=
  Host.scatterAdd (F := Ideal) (φ := .f32) scatter_S100000x64_S3300000x1_S3300000x64_1_0_0_1 (zeros (F := Ideal) S100000x64 bcast_S_S100000x64) rowI
    (mulf (F := Ideal) (φ := .f32) (Host.gather gather_S100000x64_S3300000x1_S3300000x64_1_0_n_n_0_1_164 h srcI)
      (broadcastInDim S3300000x64 ![0, 1] bcast_S3300000x1_S3300000x64_0_1
        (broadcastInDim S3300000x1 ![0] bcast_S3300000_S3300000x1_0 (normP D srcI dstI))))
/-- Weighted propagation of one feature. -/
def conv1P (h : S100000x1.Idx → EReal) : S100000x1.Idx → EReal :=
  Host.scatterAdd (F := Ideal) (φ := .f32) scatter_S100000x1_S3300000x1_S3300000x1_1_0_0_1 (zeros (F := Ideal) S100000x1 bcast_S_S100000x1) rowI
    (mulf (F := Ideal) (φ := .f32) (Host.gather gather_S100000x1_S3300000x1_S3300000x1_1_0_n_n_0_1_11 h srcI)
      (broadcastInDim S3300000x1 ![0] bcast_S3300000_S3300000x1_0 (normP D srcI dstI)))
/-- Bare propagation of 64 features. -/
def prop64P (g : S100000x64.Idx → EReal) : S100000x64.Idx → EReal :=
  Host.scatterAdd (F := Ideal) (φ := .f32) scatter_S100000x64_S3300000x1_S3300000x64_1_0_0_1 (zeros (F := Ideal) S100000x64 bcast_S_S100000x64) rowI
    (Host.gather gather_S100000x64_S3300000x1_S3300000x64_1_0_n_n_0_1_164 g srcI)
/-- Bare propagation of one feature. -/
def prop1P (g : S100000x1.Idx → EReal) : S100000x1.Idx → EReal :=
  Host.scatterAdd (F := Ideal) (φ := .f32) scatter_S100000x1_S3300000x1_S3300000x1_1_0_0_1 (zeros (F := Ideal) S100000x1 bcast_S_S100000x1) rowI
    (Host.gather gather_S100000x1_S3300000x1_S3300000x1_1_0_n_n_0_1_11 g srcI)

/-! ## A sum scattered from zero -/

section ScatterLaw
variable {s si su : Shape} (d : ScatterDims s si su) {w : Nat} (idx : IVec si w) (z : s.Idx → EReal) (i : s.Idx)

/-- The host's accumulating scatter is the library's sum of the landing updates. -/
theorem scatterAdd_eq (U : su.Idx → EReal) :
    Host.scatterAdd (F := Ideal) (φ := .f32) d z idx U = Ideal.hostScatterAdd d z idx U := rfl

/-- Two scatters from the same start agree at `i` when the updates that land on `i` agree. -/
theorem hostScatterAdd_congr (U U' : su.Idx → EReal) (h : ∀ j, d.resultIdx? j idx = some i → U j = U' j) :
    Ideal.hostScatterAdd d z idx U i = Ideal.hostScatterAdd d z idx U' i := by
  unfold Ideal.hostScatterAdd
  exact congrArg (z i + ·) (Finset.sum_congr rfl fun j hj => h j (Finset.mem_filter.mp hj).2)

/-- A scatter from zero of real updates is real. -/
theorem hostScatterAdd_isReal (U : su.Idx → EReal) (hz : z i = 0) (h : ∀ j, d.resultIdx? j idx = some i → IsReal (U j)) :
    IsReal (Ideal.hostScatterAdd d z idx U i) := by
  unfold Ideal.hostScatterAdd
  beta_reduce
  rw [hz]
  exact IsReal.zero.add (IsReal.sum _ _ fun j hj => h j (Finset.mem_filter.mp hj).2)

/-- THE EDGE-SUM LAW ON A SCATTER. If every update that lands on `i` is `a j * δc j` on one side and
    `a j * (δr j * δc j)` on the other, with `δr j` the landing node's own factor `Dn` and everything real, then the
    first scatter (from zero) times `Dn` is the second. -/
theorem hostScatterAdd_law (U U' a δc δr : su.Idx → EReal) (Dn : EReal) (hz : z i = 0)
    (hU : ∀ j, d.resultIdx? j idx = some i → U j = a j * δc j)
    (hU' : ∀ j, d.resultIdx? j idx = some i → U' j = a j * (δr j * δc j))
    (ha : ∀ j, d.resultIdx? j idx = some i → IsReal (a j)) (hδ : ∀ j, d.resultIdx? j idx = some i → IsReal (δc j))
    (hD : IsReal Dn) (hr : ∀ j, d.resultIdx? j idx = some i → δr j = Dn) :
    Ideal.hostScatterAdd d z idx U i * Dn = Ideal.hostScatterAdd d z idx U' i := by
  unfold Ideal.hostScatterAdd
  beta_reduce
  rw [hz, Finset.sum_congr rfl (fun j hj => hU j (Finset.mem_filter.mp hj).2),
    Finset.sum_congr rfl (fun j hj => hU' j (Finset.mem_filter.mp hj).2)]
  exact edge_sum_law _ a δc δr Dn (fun j hj => ha j (Finset.mem_filter.mp hj).2) (fun j hj => hδ j (Finset.mem_filter.mp hj).2) hD
    (fun j hj => hr j (Finset.mem_filter.mp hj).2)

end ScatterLaw

/-! ## The gathers and the edge weight at an index -/

theorem normP_apply (e : Fin 3300000) : normP D srcI dstI (ix1 e) = D (ix1 (gdst dstI e)) * D (ix1 (gsrc srcI e)) := by
  unfold normP
  show Host.gather gather_S100000_S3300000x1_S3300000_n_0_n_n_0_1_1 D dstI (ix1 e)
      * Host.gather gather_S100000_S3300000x1_S3300000_n_0_n_n_0_1_1 D srcI (ix1 e) = _
  rw [gather_rows1_apply (by decide) _ rfl rfl rfl rfl rfl rfl, gather_rows1_apply (by decide) _ rfl rfl rfl rfl rfl rfl]
  rfl

/-- A gathered row of 64 features at `(e, d)`. -/
theorem gather64_apply (g : S100000x64.Idx → EReal) (j : S3300000x64.Idx) :
    Host.gather gather_S100000x64_S3300000x1_S3300000x64_1_0_n_n_0_1_164 g srcI j = g (ix2 (gsrc srcI (j 0)) (j 1)) := by
  rw [gather_rows2_apply (by decide) _ rfl rfl rfl rfl rfl rfl]
  rfl
/-- A gathered row of one feature at `(e, 0)`. -/
theorem gather1_apply (g : S100000x1.Idx → EReal) (j : S3300000x1.Idx) :
    Host.gather gather_S100000x1_S3300000x1_S3300000x1_1_0_n_n_0_1_11 g srcI j = g (ix2 (gsrc srcI (j 0)) (j 1)) := by
  rw [gather_rows2_apply (by decide) _ rfl rfl rfl rfl rfl rfl]
  rfl

/-- The weighted update of 64 features at `(e, d)`. -/
theorem wupd64_apply (h : S100000x64.Idx → EReal) (j : S3300000x64.Idx) :
    mulf (F := Ideal) (φ := .f32) (Host.gather gather_S100000x64_S3300000x1_S3300000x64_1_0_n_n_0_1_164 h srcI)
      (broadcastInDim S3300000x64 ![0, 1] bcast_S3300000x1_S3300000x64_0_1
        (broadcastInDim S3300000x1 ![0] bcast_S3300000_S3300000x1_0 (normP D srcI dstI))) j
      = h (ix2 (gsrc srcI (j 0)) (j 1)) * (D (ix1 (gdst dstI (j 0))) * D (ix1 (gsrc srcI (j 0)))) := by
  show Host.gather gather_S100000x64_S3300000x1_S3300000x64_1_0_n_n_0_1_164 h srcI j
      * broadcastInDim S3300000x64 ![0, 1] bcast_S3300000x1_S3300000x64_0_1
          (broadcastInDim S3300000x1 ![0] bcast_S3300000_S3300000x1_0 (normP D srcI dstI)) j = _
  rw [gather64_apply, edgeCol64_apply]
  exact congrArg (_ * ·) (normP_apply D srcI dstI (j 0))
/-- The weighted update of one feature at `(e, 0)`. -/
theorem wupd1_apply (h : S100000x1.Idx → EReal) (j : S3300000x1.Idx) :
    mulf (F := Ideal) (φ := .f32) (Host.gather gather_S100000x1_S3300000x1_S3300000x1_1_0_n_n_0_1_11 h srcI)
      (broadcastInDim S3300000x1 ![0] bcast_S3300000_S3300000x1_0 (normP D srcI dstI)) j
      = h (ix2 (gsrc srcI (j 0)) (j 1)) * (D (ix1 (gdst dstI (j 0))) * D (ix1 (gsrc srcI (j 0)))) := by
  show Host.gather gather_S100000x1_S3300000x1_S3300000x1_1_0_n_n_0_1_11 h srcI j
      * broadcastInDim S3300000x1 ![0] bcast_S3300000_S3300000x1_0 (normP D srcI dstI) j = _
  rw [gather1_apply, edgeCol1_apply]
  exact congrArg (_ * ·) (normP_apply D srcI dstI (j 0))

end Cert.Gcn.Abs

end
-- ==== Proof.GcnBridge.lean ====
/-
  The two arrangements are one function (over abstract data, see the module of the operators).

  First layer. At node `n`, feature `d`: the kernel has `(∑ over the edges into n of (x·w1)[src] * D src) * D n`, the
  reference `∑ over the edges into n of (x·w1)[src] * (D dst * D src)` with `dst = n` on those edges: the edge-sum law.
  Then both add the bias and take the maximum with zero. Every value so far is a real number.
  Second layer: the same law on the one feature `(a · w2)`, `a` the first layer's output. Last, both apply
  `v ↦ 1 / (1 + exp (-v))`, which is the logistic function's definition.
-/
import proofs.«100186_j29197187678384_2_alg».proof.Proof.GcnAbstract

noncomputable section

namespace Cert.Gcn.Abs

open Cert.ReferenceIdeal Cert.ReferenceIdeal.Gen Idealize.ShloMosaic Idealize.ShloMosaic.TcCoe
open Idealize.ShloMosaic.ValueIdx Idealize.ShloMosaic.GatherScatterRows
open Cert.Gcn Cert.Gcn.Stages Cert.Gcn.At

variable (D : S100000.Idx → EReal) (rowI srcI dstI : S3300000x1.Idx → BitVec 32)
variable (x : S100000x128.Idx → EReal) (w1 : S128x64.Idx → EReal) (b1 : S64.Idx → EReal) (w2 : S64x1.Idx → EReal) (b2 : S1.Idx → EReal)
variable (dc : S100000x1.Idx → EReal) (b1r : S1x64.Idx → EReal) (b2r : S1x1.Idx → EReal)

/-! ## The two networks -/

/-- The reference's first layer. -/
def layer1P : S100000x64.Idx → EReal :=
  maximumf (F := Ideal) (φ := .f32)
    (addf (F := Ideal) (φ := .f32) (conv64P D rowI srcI dstI (Host.dotGeneral (F := Ideal) (φ₁ := .f32) (φ₂ := .f32) dot_S100000x128_S128x64_S100000x64_1_0_0_1_n_n none x w1))
      (broadcastInDim S100000x64 ![0, 1] bcast_S1x64_S100000x64_0_1 (broadcastInDim S1x64 ![1] bcast_S64_S1x64_1 b1)))
    (zeros (F := Ideal) S100000x64 bcast_S_S100000x64)
/-- The reference's second layer before the activation, on first-layer values `a`. -/
def layer2P (a : S100000x64.Idx → EReal) : S100000x1.Idx → EReal :=
  addf (F := Ideal) (φ := .f32) (conv1P D rowI srcI dstI (Host.dotGeneral (F := Ideal) (φ₁ := .f32) (φ₂ := .f32) dot_S100000x64_S64x1_S100000x1_1_0_0_1_n_n none a w2))
    (broadcastInDim S100000x1 ![0, 1] bcast_S1x1_S100000x1_0_1 (broadcastInDim S1x1 ![1] bcast_S1_S1x1_1 b2))
/-- The reference's network. -/
def outP : S100000x1.Idx → EReal :=
  Host.divf (F := Ideal) (φ := .f32) (ones (F := Ideal) S100000x1 bcast_S_S100000x1)
    (addf (F := Ideal) (φ := .f32) (ones (F := Ideal) S100000x1 bcast_S_S100000x1)
      (Host.exp (F := Ideal) (φ := .f32) (Host.negf (F := Ideal) (φ := .f32)
        (layer2P D rowI srcI dstI w2 b2 (layer1P D rowI srcI dstI x w1 b1)))))
/-- The kernel's network. -/
def koutP : S100000x1.Idx → EReal :=
  KStages.post (prop1P rowI srcI (KStages.pre2 (prop64P rowI srcI (KStages.pre1 x w1 dc)) dc b1r w2)) dc b2r

/-! ## Pointwise stages read at an index (over plain variables only) -/

/-- Bias, then maximum with zero, at `(n, d)`. -/
theorem relu_bias_at (A : S100000x64.Idx → EReal) (b : S64.Idx → EReal) (n : Fin 100000) (d : Fin 64) :
    maximumf (F := Ideal) (φ := .f32)
        (addf (F := Ideal) (φ := .f32) A
          (broadcastInDim S100000x64 ![0, 1] bcast_S1x64_S100000x64_0_1 (broadcastInDim S1x64 ![1] bcast_S64_S1x64_1 b)))
        (zeros (F := Ideal) S100000x64 bcast_S_S100000x64) (ix2 n d)
      = max (A (ix2 n d) + b (ix1 d)) 0 := by
  show max (A (ix2 n d) + broadcastInDim S100000x64 ![0, 1] bcast_S1x64_S100000x64_0_1
      (broadcastInDim S1x64 ![1] bcast_S64_S1x64_1 b) (ix2 n d)) (zeros (F := Ideal) S100000x64 bcast_S_S100000x64 (ix2 n d)) = _
  rw [bias64_apply, zeros_apply]

/-- The second bias at `(n, 0)`. -/
theorem bias1_at (A : S100000x1.Idx → EReal) (b : S1.Idx → EReal) (n : Fin 100000) :
    addf (F := Ideal) (φ := .f32) A
        (broadcastInDim S100000x1 ![0, 1] bcast_S1x1_S100000x1_0_1 (broadcastInDim S1x1 ![1] bcast_S1_S1x1_1 b)) (ix2 n 0)
      = A (ix2 n 0) + b (ix1 0) := by
  show A (ix2 n 0) + broadcastInDim S100000x1 ![0, 1] bcast_S1x1_S100000x1_0_1 (broadcastInDim S1x1 ![1] bcast_S1_S1x1_1 b) (ix2 n 0) = _
  rw [bias1_apply]

/-- `1 / (1 + exp (-v))` spelt in host operations is the logistic function, at `(n, 0)`. -/
theorem sigmoid_at (V : S100000x1.Idx → EReal) (n : Fin 100000) :
    Host.divf (F := Ideal) (φ := .f32) (ones (F := Ideal) S100000x1 bcast_S_S100000x1)
        (addf (F := Ideal) (φ := .f32) (ones (F := Ideal) S100000x1 bcast_S_S100000x1)
          (Host.exp (F := Ideal) (φ := .f32) (Host.negf (F := Ideal) (φ := .f32) V))) (ix2 n 0)
      = Ideal.logistic (V (ix2 n 0)) := by
  show Ideal.div (ones (F := Ideal) S100000x1 bcast_S_S100000x1 (ix2 n 0))
      (ones (F := Ideal) S100000x1 bcast_S_S100000x1 (ix2 n 0) + Ideal.exp (-(V (ix2 n 0)))) = _
  rw [ones_apply]
  rfl

/-- The kernel's three pointwise stages at an index. -/
theorem pre1_at (x : S100000x128.Idx → EReal) (w1 : S128x64.Idx → EReal) (dc : S100000x1.Idx → EReal) (a : Fin 100000) (b : Fin 64) :
    KStages.pre1 x w1 dc (ix2 a b) = (∑ k : Fin 128, x (ix2 a k) * w1 (ix2 k b)) * dc (ix2 a 0) := rfl
theorem pre2_at (s : S100000x64.Idx → EReal) (dc : S100000x1.Idx → EReal) (b1r : S1x64.Idx → EReal) (w2 : S64x1.Idx → EReal)
    (a : Fin 100000) (z : Fin 1) :
    KStages.pre2 s dc b1r w2 (ix2 a z)
      = (∑ d : Fin 64, max (s (ix2 a d) * dc (ix2 a 0) + b1r (ix2 0 d)) 0 * w2 (ix2 d 0)) * dc (ix2 a 0) := rfl
theorem post_at (s : S100000x1.Idx → EReal) (dc : S100000x1.Idx → EReal) (b2r : S1x1.Idx → EReal) (n : Fin 100000) :
    KStages.post s dc b2r (ix2 n 0) = Ideal.logistic (s (ix2 n 0) * dc (ix2 n 0) + b2r (ix2 0 0)) := rfl

/-! ## First layer -/

/-- The kernel's post-scaled propagation is the reference's weighted propagation of `x · w1`. -/
theorem conv64_agree (hD : ∀ n, IsReal (D n))
    (hland : ∀ (j : S3300000x64.Idx) (i : S100000x64.Idx), scatter_S100000x64_S3300000x1_S3300000x64_1_0_0_1.resultIdx? j rowI = some i → gdst dstI (j 0) = i 0)
    (hdc : ∀ n : Fin 100000, dc (ix2 n 0) = D (ix1 n)) (hx : ∀ i, IsReal (x i)) (hw1 : ∀ i, IsReal (w1 i))
    (n : Fin 100000) (d : Fin 64) :
    prop64P rowI srcI (KStages.pre1 x w1 dc) (ix2 n d) * dc (ix2 n 0) = conv64P D rowI srcI dstI (Host.dotGeneral (F := Ideal) (φ₁ := .f32) (φ₂ := .f32) dot_S100000x128_S128x64_S100000x64_1_0_0_1_n_n none x w1) (ix2 n d) := by
  unfold prop64P conv64P
  rw [scatterAdd_eq, scatterAdd_eq, hdc n]
  refine hostScatterAdd_law _ _ _ _ _ _ (fun j => ∑ k : Fin 128, x (ix2 (gsrc srcI (j 0)) k) * w1 (ix2 k (j 1)))
    (fun j => D (ix1 (gsrc srcI (j 0)))) (fun j => D (ix1 (gdst dstI (j 0)))) (D (ix1 n)) (zeros_apply _ _ _) ?_ ?_ ?_ ?_ (hD _) ?_
  · intro j _
    rw [gather64_apply]
    exact (pre1_at x w1 dc (gsrc srcI (j 0)) (j 1)).trans (congrArg (_ * ·) (hdc _))
  · intro j _
    rw [wupd64_apply]
    exact congrArg (· * _) (dot1_apply x w1 (gsrc srcI (j 0)) (j 1))
  · intro j _; exact IsReal.sum _ _ fun k _ => (hx _).mul (hw1 _)
  · intro j _; exact hD _
  · intro j hj
    show D (ix1 (gdst dstI (j 0))) = D (ix1 n)
    rw [hland j _ hj]

/-- The kernel's first layer is the reference's. -/
theorem layer1_agree (hD : ∀ n, IsReal (D n))
    (hland : ∀ (j : S3300000x64.Idx) (i : S100000x64.Idx), scatter_S100000x64_S3300000x1_S3300000x64_1_0_0_1.resultIdx? j rowI = some i → gdst dstI (j 0) = i 0)
    (hdc : ∀ n : Fin 100000, dc (ix2 n 0) = D (ix1 n)) (hb1r : ∀ d : Fin 64, b1r (ix2 0 d) = b1 (ix1 d))
    (hx : ∀ i, IsReal (x i)) (hw1 : ∀ i, IsReal (w1 i)) (n : Fin 100000) (d : Fin 64) :
    max (prop64P rowI srcI (KStages.pre1 x w1 dc) (ix2 n d) * dc (ix2 n 0) + b1r (ix2 0 d)) 0
      = layer1P D rowI srcI dstI x w1 b1 (ix2 n d) := by
  rw [conv64_agree D rowI srcI dstI x w1 dc hD hland hdc hx hw1 n d, hb1r d]
  unfold layer1P
  rw [relu_bias_at]

/-- The first layer's values are real numbers. -/
theorem layer1P_isReal (hD : ∀ n, IsReal (D n)) (hx : ∀ i, IsReal (x i)) (hw1 : ∀ i, IsReal (w1 i)) (hb1 : ∀ i, IsReal (b1 i))
    (n : Fin 100000) (d : Fin 64) : IsReal (layer1P D rowI srcI dstI x w1 b1 (ix2 n d)) := by
  unfold layer1P
  rw [relu_bias_at]
  refine IsReal.max (IsReal.add ?_ (hb1 _)) IsReal.zero
  unfold conv64P
  rw [scatterAdd_eq]
  refine hostScatterAdd_isReal _ _ _ _ _ (zeros_apply _ _ _) fun j _ => ?_
  rw [wupd64_apply]
  refine IsReal.mul ?_ ((hD _).mul (hD _))
  rw [show (Host.dotGeneral (F := Ideal) (φ₁ := .f32) (φ₂ := .f32) dot_S100000x128_S128x64_S100000x64_1_0_0_1_n_n none x w1) (ix2 (gsrc srcI (j 0)) (j 1)) = _ from dot1_apply x w1 (gsrc srcI (j 0)) (j 1)]
  exact IsReal.sum _ _ fun k _ => (hx _).mul (hw1 _)

/-! ## Second layer -/

/-- On first-layer values `a` (real, and equal to the kernel's own first layer computed from `s`), the kernel's
    post-scaled propagation is the reference's weighted propagation of `a · w2`. -/
theorem conv1_agree (hD : ∀ n, IsReal (D n))
    (hland : ∀ (j : S3300000x1.Idx) (i : S100000x1.Idx), scatter_S100000x1_S3300000x1_S3300000x1_1_0_0_1.resultIdx? j rowI = some i → gdst dstI (j 0) = i 0)
    (hdc : ∀ n : Fin 100000, dc (ix2 n 0) = D (ix1 n)) (hw2 : ∀ i, IsReal (w2 i))
    (a s : S100000x64.Idx → EReal) (ha : ∀ (n : Fin 100000) (d : Fin 64), IsReal (a (ix2 n d)))
    (hs : ∀ (n : Fin 100000) (d : Fin 64), max (s (ix2 n d) * dc (ix2 n 0) + b1r (ix2 0 d)) 0 = a (ix2 n d)) (n : Fin 100000) :
    prop1P rowI srcI (KStages.pre2 s dc b1r w2) (ix2 n 0) * dc (ix2 n 0)
      = conv1P D rowI srcI dstI (Host.dotGeneral (F := Ideal) (φ₁ := .f32) (φ₂ := .f32) dot_S100000x64_S64x1_S100000x1_1_0_0_1_n_n none a w2) (ix2 n 0) := by
  unfold prop1P conv1P
  rw [scatterAdd_eq, scatterAdd_eq, hdc n]
  refine hostScatterAdd_law _ _ _ _ _ _ (fun j => ∑ d : Fin 64, a (ix2 (gsrc srcI (j 0)) d) * w2 (ix2 d 0))
    (fun j => D (ix1 (gsrc srcI (j 0)))) (fun j => D (ix1 (gdst dstI (j 0)))) (D (ix1 n)) (zeros_apply _ _ _) ?_ ?_ ?_ ?_ (hD _) ?_
  · intro j _
    rw [gather1_apply]
    refine (pre2_at s dc b1r w2 (gsrc srcI (j 0)) (j 1)).trans ?_
    simp only [hs]
    rw [hdc]
  · intro j _
    rw [wupd1_apply]
    have hz : ∀ z : Fin 1, z = 0 := fun z => Subsingleton.elim _ _
    have hj1 := hz (j 1)
    exact congrArg (· * _)
      ((congrArg (fun z : Fin 1 => Host.dotGeneral (F := Ideal) (φ₁ := .f32) (φ₂ := .f32) dot_S100000x64_S64x1_S100000x1_1_0_0_1_n_n none a w2
          (ix2 (gsrc srcI (j 0)) z)) hj1).trans (dot2_apply a w2 (gsrc srcI (j 0))))
  · intro j _; exact IsReal.sum _ _ fun d _ => (ha _ _).mul (hw2 _)
  · intro j _; exact hD _
  · intro j hj
    show D (ix1 (gdst dstI (j 0))) = D (ix1 n)
    rw [hland j _ hj]

/-! ## The networks -/

/-- The reference's network at a node: the logistic function of the second layer's value. -/
theorem outP_apply (n : Fin 100000) :
    outP D rowI srcI dstI x w1 b1 w2 b2 (ix2 n 0)
      = Ideal.logistic (conv1P D rowI srcI dstI
          (Host.dotGeneral (F := Ideal) (φ₁ := .f32) (φ₂ := .f32) dot_S100000x64_S64x1_S100000x1_1_0_0_1_n_n none (layer1P D rowI srcI dstI x w1 b1) w2) (ix2 n 0)
          + b2 (ix1 0)) := by
  unfold outP
  rw [sigmoid_at]
  unfold layer2P
  rw [bias1_at]

/-- THE TWO NETWORKS ARE ONE FUNCTION. -/
theorem kout_eq_out (hD : ∀ n, IsReal (D n))
    (hland64 : ∀ (j : S3300000x64.Idx) (i : S100000x64.Idx), scatter_S100000x64_S3300000x1_S3300000x64_1_0_0_1.resultIdx? j rowI = some i → gdst dstI (j 0) = i 0)
    (hland1 : ∀ (j : S3300000x1.Idx) (i : S100000x1.Idx), scatter_S100000x1_S3300000x1_S3300000x1_1_0_0_1.resultIdx? j rowI = some i → gdst dstI (j 0) = i 0)
    (hdc : ∀ n : Fin 100000, dc (ix2 n 0) = D (ix1 n)) (hb1r : ∀ d : Fin 64, b1r (ix2 0 d) = b1 (ix1 d))
    (hb2r : b2r (ix2 0 0) = b2 (ix1 0))
    (hx : ∀ i, IsReal (x i)) (hw1 : ∀ i, IsReal (w1 i)) (hb1 : ∀ i, IsReal (b1 i)) (hw2 : ∀ i, IsReal (w2 i)) :
    koutP rowI srcI x w1 w2 dc b1r b2r = outP D rowI srcI dstI x w1 b1 w2 b2 := by
  funext i
  obtain ⟨n, z, rfl⟩ : ∃ (n : Fin 100000) (z : Fin 1), i = ix2 n z := ⟨i 0, i 1, eq_ix2 i⟩
  obtain rfl : z = 0 := Subsingleton.elim _ _
  rw [outP_apply]
  unfold koutP
  rw [post_at, conv1_agree D rowI srcI dstI w2 dc b1r hD hland1 hdc hw2 (layer1P D rowI srcI dstI x w1 b1)
      (prop64P rowI srcI (KStages.pre1 x w1 dc)) (layer1P_isReal D rowI srcI dstI x w1 b1 hD hx hw1 hb1)
      (layer1_agree D rowI srcI dstI x w1 b1 dc b1r hD hland64 hdc hb1r hx hw1) n, hb2r]

end Cert.Gcn.Abs

end
-- ==== Proof.GcnStagesAt.lean ====
/-
  The stage functions read at an index, on the extended reals.

  * An index column holds at `(e, 0)` the list's entry `e`; `wrap` leaves a non-negative node number alone, and a
    node number below 100000 passes the gather's clamp unchanged.
  * An update of a scatter by `row` lands on node `n` exactly when `row e = n` read as a signed number; so on the
    edges that reach `n` the clamped, wrapped destination is `n` itself.
-/
import proofs.«100186_j29197187678384_2_alg».proof.Proof.GcnStages
import proofs.«100186_j29197187678384_2_alg».proof.Proof.LibGatherScatterRows
import proofs.«100186_j29197187678384_2_alg».proof.Proof.LibEdgeSum
import Idealize.ShloMosaic.Lib.Pipeline.Value
import Idealize.ShloMosaic.Lib.ValueIdx
import Idealize.ShloMosaic.PureOps.Ideal.Laws

noncomputable section

namespace Cert.Gcn.At

open Cert.ReferenceIdeal Cert.ReferenceIdeal.Gen Idealize.ShloMosaic Idealize.ShloMosaic.TcCoe
open Idealize.ShloMosaic.ValueIdx Idealize.ShloMosaic.GatherScatterRows
open Cert.Gcn Cert.Gcn.Stages

/-! ## Index columns -/

/-- The column of a list holds the list's entry `e` at `(e, 0)`. -/
theorem asColumn_apply (v : S3300000.Idx → BitVec 32) (j : S3300000x1.Idx) :
    asColumn (F := Ideal) v j = v (ix1 (j 0)) := by
  unfold asColumn
  exact broadcastInDim_apply _ bcast_S3300000_S3300000x1_0 v j (ix1 (j 0)) (fun a => match a with
    | ⟨0, _⟩ => by show (j 0).val = if (3300000 : Nat) = 1 then 0 else (j 0).val; rw [if_neg (by decide)])

/-- `wrap` at `(e, 0)`: the entry, plus 100000 when it is negative. -/
theorem wrap_apply (v : S3300000.Idx → BitVec 32) (j : S3300000x1.Idx) :
    wrap (F := Ideal) v j
      = Scalar.select (IntOp.cmpi .slt (v (ix1 (j 0))) 0#32) (IntOp.addi (v (ix1 (j 0))) 100000#32) (v (ix1 (j 0))) := by
  unfold wrap; rw [asColumn_apply]; rfl

/-- A node number `0 ≤ n < 100000` passes `wrap` and the gather's clamp unchanged. -/
theorem clampRow_wrap (v : S3300000.Idx → BitVec 32) (j : S3300000x1.Idx) (n : Nat) (hn : n < 100000)
    (h : (v (ix1 (j 0))).toInt = (n : Int)) : clampRow 100000 (wrap (F := Ideal) v j) = n := by
  rw [wrap_apply]
  have hs : IntOp.cmpi .slt (v (ix1 (j 0))) 0#32 = 0#1 := by
    unfold IntOp.cmpi
    have hlt : (v (ix1 (j 0))).slt 0#32 = false := by
      rw [BitVec.slt, h]; simp
    simp [hlt]
  rw [hs]
  have hsel : Scalar.select (0#1) (IntOp.addi (v (ix1 (j 0))) 100000#32) (v (ix1 (j 0))) = v (ix1 (j 0)) := by
    unfold Scalar.select; rw [if_neg (by decide)]
  rw [hsel]
  unfold clampRow
  rw [h, Int.toNat_natCast]
  omega

/-! ## Where a scatter by `row` lands -/

/-- An update of the 64-feature scatter lands on `i` exactly when its edge ends in `i`'s node (the destination read
    as a signed number) and its feature is `i`'s. -/
theorem lands64_iff (ei : S2x3200000.Idx → BitVec 32) (j : S3300000x64.Idx) (i : S100000x64.Idx) :
    scatter_S100000x64_S3300000x1_S3300000x64_1_0_0_1.resultIdx? j (rowIdx (F := Ideal) ei) = some i
      ↔ ((row (F := Ideal) ei (ix1 (j 0))).toInt = ((i 0).val : Int) ∧ j 1 = i 1) := by
  rw [scatter_rows2_resultIdx _ rfl rfl rfl rfl]
  unfold rowIdx; rw [asColumn_apply]

/-- The same for the one-feature scatter. -/
theorem lands1_iff (ei : S2x3200000.Idx → BitVec 32) (j : S3300000x1.Idx) (i : S100000x1.Idx) :
    scatter_S100000x1_S3300000x1_S3300000x1_1_0_0_1.resultIdx? j (rowIdx (F := Ideal) ei) = some i
      ↔ ((row (F := Ideal) ei (ix1 (j 0))).toInt = ((i 0).val : Int) ∧ j 1 = i 1) := by
  rw [scatter_rows2_resultIdx _ rfl rfl rfl rfl]
  unfold rowIdx; rw [asColumn_apply]

end Cert.Gcn.At

end
-- ==== Proof.GcnDinvReal.lean ====
/-
  The normalisation factor of a node is a real number: it is the inverse square root of the node's degree where the
  degree is positive and `0` elsewhere; a positive real has a real inverse square root, `+∞` has `0`, and every other
  value of the degree selects `0`.
-/
import proofs.«100186_j29197187678384_2_alg».proof.Proof.GcnStagesAt
import proofs.«100186_j29197187678384_2_alg».proof.Proof.GcnLayoutAt

noncomputable section

namespace Cert.Gcn.At

open Cert.ReferenceIdeal Cert.ReferenceIdeal.Gen Idealize.ShloMosaic Idealize.ShloMosaic.TcCoe
open Idealize.ShloMosaic.ValueIdx Idealize.ShloMosaic.GatherScatterRows
open Cert.Gcn Cert.Gcn.Stages

/-- The inverse square root where the argument is positive, `0` elsewhere, is a real number whatever the argument:
    a positive real has a real inverse square root, and `+∞` has `0`. -/
theorem select_pos_rsqrt_isReal (t : EReal) : IsReal (Scalar.select (Ideal.cmp .ogt t 0) (Ideal.rsqrt t) (0 : EReal)) := by
  have e : Ideal.cmp .ogt t 0 = BitVec.ofBool (decide ((0 : EReal) < t)) := rfl
  rw [e]
  unfold Scalar.select
  by_cases h : (0 : EReal) < t
  · rw [decide_eq_true h, if_pos (by decide)]
    induction t using EReal.rec with
    | bot => exact absurd h (by simp)
    | coe r =>
      have hr : 0 < r := by exact_mod_cast h
      rw [Ideal.rsqrt_coe, if_neg (not_lt.mpr hr.le), if_neg hr.ne']
      exact ⟨_, rfl⟩
    | top => rw [Ideal.rsqrt_top]; exact IsReal.zero
  · rw [decide_eq_false h, if_neg (by decide)]; exact IsReal.zero

/-- The host's inverse square root of an array at an index is the extended reals' of the entry. -/
theorem rsqrt_at (D : FArr Ideal S100000) (n : S100000.Idx) :
    Host.rsqrt (F := Ideal) (φ := .f32) D n = Ideal.rsqrt (D n) := rfl

/-- The comparison with `0` at an entry is the extended reals' comparison. -/
theorem cmp_ogt_zero_at (D : FArr Ideal S100000) (n : S100000.Idx) :
    FloatOps.cmpf (F := Ideal) (φ := .f32) .ogt (D n) 0 = Ideal.cmp .ogt (D n) 0 := rfl

/-- For ANY array `D` of degrees: the inverse square root where `D` is positive, `0` elsewhere, is real at every node. -/
theorem select_rsqrt_isReal (D : FArr Ideal S100000) (n : S100000.Idx) :
    IsReal (select (cmpf (F := Ideal) (φ := .f32) .ogt D (zeros (F := Ideal) S100000 bcast_S_S100000))
      (Host.rsqrt (F := Ideal) (φ := .f32) D) (zeros (F := Ideal) S100000 bcast_S_S100000) n) := by
  rw [select_apply, cmpf_apply, zeros_apply, rsqrt_at, cmp_ogt_zero_at]
  exact select_pos_rsqrt_isReal (D n)

/-- **The normalisation factor of every node is a real number.** -/
theorem dinv_isReal (ei : S2x3200000.Idx → BitVec 32) (n : S100000.Idx) : IsReal (dinv (F := Ideal) ei n) := by
  unfold dinv
  exact select_rsqrt_isReal (deg (F := Ideal) ei) n

end Cert.Gcn.At

end
-- ==== Proof.GcnInstance.lean ====
/-
  The abstract statement at the programs' own data: the per-node factor is `dinv` of the edge list, the scatter
  indices are `row` as a column, the gather indices `col` and `row` wrapped. An update that lands on node `n` has
  `row e = n` read signed, and such a node number passes the wrap and the gather's clamp unchanged; `dinv` is real at
  every node. So the kernel's network and the reference's are one function of real inputs.
-/
import proofs.«100186_j29197187678384_2_alg».proof.Proof.GcnBridge
import proofs.«100186_j29197187678384_2_alg».proof.Proof.GcnStagesAt
import proofs.«100186_j29197187678384_2_alg».proof.Proof.GcnDinvReal

noncomputable section

namespace Cert.Gcn.Inst

open Cert.ReferenceIdeal Cert.ReferenceIdeal.Gen Idealize.ShloMosaic Idealize.ShloMosaic.TcCoe
open Idealize.ShloMosaic.ValueIdx Idealize.ShloMosaic.GatherScatterRows
open Cert.Gcn Cert.Gcn.Stages Cert.Gcn.At Cert.Gcn.Abs

variable (ei : S2x3200000.Idx → BitVec 32)
variable (x : S100000x128.Idx → EReal) (w1 : S128x64.Idx → EReal) (b1 : S64.Idx → EReal) (w2 : S64x1.Idx → EReal) (b2 : S1.Idx → EReal)
variable (dc : S100000x1.Idx → EReal) (b1r : S1x64.Idx → EReal) (b2r : S1x1.Idx → EReal)

/-- The reference's network is the abstract one at `dinv`, `row`, `col`. -/
theorem out_eq_outP : Stages.out (F := Ideal) x ei w1 b1 w2 b2
    = outP (Stages.dinv (F := Ideal) ei) (rowIdx (F := Ideal) ei) (wrap (F := Ideal) (col (F := Ideal) ei))
        (wrap (F := Ideal) (row (F := Ideal) ei)) x w1 b1 w2 b2 := by
  unfold Stages.out Stages.layer2 Stages.layer1 Stages.conv64 Stages.conv1 Stages.norm outP layer2P layer1P conv64P conv1P normP
  with_reducible rfl

/-- The kernel's network is the abstract one at `row`, `col`. -/
theorem kout_eq_koutP : KStages.out x ei w1 dc b1r w2 b2r
    = koutP (rowIdx (F := Ideal) ei) (wrap (F := Ideal) (col (F := Ideal) ei)) x w1 w2 dc b1r b2r := by
  unfold KStages.out KStages.prop64 KStages.prop1 koutP prop64P prop1P
  with_reducible rfl

/-- An update of the 64-feature scatter that lands on `i` gathers its destination factor from `i`'s node. -/
theorem land64 (j : S3300000x64.Idx) (i : S100000x64.Idx)
    (h : scatter_S100000x64_S3300000x1_S3300000x64_1_0_0_1.resultIdx? j (rowIdx (F := Ideal) ei) = some i) :
    gdst (wrap (F := Ideal) (row (F := Ideal) ei)) (j 0) = i 0 :=
  Fin.ext (clampRow_wrap (row (F := Ideal) ei) (ix2 (j 0) 0) (i 0).val (i 0).isLt ((lands64_iff ei j i).mp h).1)

/-- The same for the one-feature scatter. -/
theorem land1 (j : S3300000x1.Idx) (i : S100000x1.Idx)
    (h : scatter_S100000x1_S3300000x1_S3300000x1_1_0_0_1.resultIdx? j (rowIdx (F := Ideal) ei) = some i) :
    gdst (wrap (F := Ideal) (row (F := Ideal) ei)) (j 0) = i 0 :=
  Fin.ext (clampRow_wrap (row (F := Ideal) ei) (ix2 (j 0) 0) (i 0).val (i 0).isLt ((lands1_iff ei j i).mp h).1)

/-- THE KERNEL'S NETWORK IS THE REFERENCE'S, on real inputs, when `dc`, `b1r`, `b2r` are `dinv` and the biases laid
    out as a column, a row and a 1×1 array. -/
theorem kernel_eq_reference
    (hdc : ∀ n : Fin 100000, dc (ix2 n 0) = Stages.dinv (F := Ideal) ei (ix1 n))
    (hb1r : ∀ d : Fin 64, b1r (ix2 0 d) = b1 (ix1 d)) (hb2r : b2r (ix2 0 0) = b2 (ix1 0))
    (hx : ∀ i, IsReal (x i)) (hw1 : ∀ i, IsReal (w1 i)) (hb1 : ∀ i, IsReal (b1 i)) (hw2 : ∀ i, IsReal (w2 i)) :
    KStages.out x ei w1 dc b1r w2 b2r = Stages.out (F := Ideal) x ei w1 b1 w2 b2 := by
  rw [out_eq_outP, kout_eq_koutP]
  exact kout_eq_out _ _ _ _ x w1 b1 w2 b2 dc b1r b2r (dinv_isReal ei) (land64 ei) (land1 ei) hdc hb1r hb2r hx hw1 hb1 hw2

end Cert.Gcn.Inst

end
-- ==== Proof.FiniteInputs.lean ====
/-
  The precondition opened: it is the conjunction of `all (|x| < +∞)` over the five float arguments (the integer edge
  list is not constrained), so under it every entry of those arguments is a real number — an extended real that is
  neither infinity.
-/
import proofs.«100186_j29197187678384_2_alg».proof.Defs
import proofs.«100186_j29197187678384_2_alg».proof.Proof.Gen.Pre_finite_inputs
import proofs.«100186_j29197187678384_2_alg».proof.Proof.LibEdgeSum
import Idealize.ShloMosaic.Lib.ReduceAll
import Idealize.ShloMosaic.Lib.ValueIdx

noncomputable section

namespace Cert.Proof.FiniteInputs

open Idealize.ShloMosaic Idealize.ShloMosaic.ValueIdx Cert.Gcn

/-- The scalar shape has one index. -/
instance : Subsingleton Cert.Pre_finite_inputs.S_.Idx := ⟨fun a b => funext fun d => d.elim0⟩

/-- An extended real whose absolute value compares below the word of `+∞` is a real number: `|x| < ⊤` excludes
    both infinities. -/
theorem isReal_of_abs_lt_inf (x : EReal)
    (h : FloatOps.cmpf (F := Ideal) (φ := .f32) .olt (FloatOps.hostAbsf (F := Ideal) (φ := .f32) x) (FloatOps.ofBits (F := Ideal) .f32 0x7F800000#32) = 1#1) :
    IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  have h' : BitVec.ofBool (decide (max x (-x) < ⊤)) = 1#1 := h
  have hlt : max x (-x) < ⊤ := by
    by_contra hn
    rw [decide_eq_false hn] at h'
    exact absurd h' (by decide)
  obtain ⟨h1, h2⟩ := max_lt_iff.mp hlt
  induction x using EReal.rec with
  | bot => simp at h2
  | coe r => exact ⟨r, rfl⟩
  | top => simp at h1

/-- **Under the precondition every entry of the five float arguments is a real number.** The precondition is the
    conjunction of five `all (|x| < +∞)`; each conjunct, a reduction by `and` that is 1, gives the comparison at every
    index, and the comparison excludes both infinities. -/
theorem isReal_of_pre [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i : Cert.KernelIdeal.S100000x128.Idx, IsReal ((m ((c.tc : Thread Cert.KernelIdeal.nD Cert.KernelIdeal.τ).loc Cert.KernelIdeal.main_arg0) : Cert.KernelIdeal.S100000x128.Idx → EReal) i))
    ∧ (∀ i : Cert.KernelIdeal.S128x64.Idx, IsReal ((m ((c.tc : Thread Cert.KernelIdeal.nD Cert.KernelIdeal.τ).loc Cert.KernelIdeal.main_arg2) : Cert.KernelIdeal.S128x64.Idx → EReal) i))
    ∧ (∀ i : Cert.KernelIdeal.S64.Idx, IsReal ((m ((c.tc : Thread Cert.KernelIdeal.nD Cert.KernelIdeal.τ).loc Cert.KernelIdeal.main_arg3) : Cert.KernelIdeal.S64.Idx → EReal) i))
    ∧ (∀ i : Cert.KernelIdeal.S64x1.Idx, IsReal ((m ((c.tc : Thread Cert.KernelIdeal.nD Cert.KernelIdeal.τ).loc Cert.KernelIdeal.main_arg4) : Cert.KernelIdeal.S64x1.Idx → EReal) i))
    ∧ (∀ i : Cert.KernelIdeal.S1.Idx, IsReal ((m ((c.tc : Thread Cert.KernelIdeal.nD Cert.KernelIdeal.τ).loc Cert.KernelIdeal.main_arg5) : Cert.KernelIdeal.S1.Idx → EReal) i)) := by
  have h0 := congrFun (h c) ValueIdx.ix0
  dsimp only [Cert.Pre_finite_inputs.fn, Cert.Pre_finite_inputs.fn_part1] at h0
  change IntOp.andi (IntOp.andi (IntOp.andi (IntOp.andi _ _) _) _) _ = 1#1 at h0
  simp only [IntOp.andi_eq_one] at h0
  obtain ⟨⟨⟨⟨e0, e2⟩, e3⟩, e4⟩, e5⟩ := h0
  exact ⟨fun i => isReal_of_abs_lt_inf _ (Host.reduce_andi_all _ _ _ _ ValueIdx.ix0 e0 i),
    fun i => isReal_of_abs_lt_inf _ (Host.reduce_andi_all _ _ _ _ ValueIdx.ix0 e2 i),
    fun i => isReal_of_abs_lt_inf _ (Host.reduce_andi_all _ _ _ _ ValueIdx.ix0 e3 i),
    fun i => isReal_of_abs_lt_inf _ (Host.reduce_andi_all _ _ _ _ ValueIdx.ix0 e4 i),
    fun i => isReal_of_abs_lt_inf _ (Host.reduce_andi_all _ _ _ _ ValueIdx.ix0 e5 i)⟩

end Cert.Proof.FiniteInputs

end
-- ==== Proof.lean ====
/-
  A two-layer graph convolution (each layer: a matrix product, a propagation over the edges weighted by
  `deg(dst)^(-1/2) * deg(src)^(-1/2)`, a bias; a maximum with zero between the layers, the logistic function at the
  end), computed two ways on 100000 nodes and 3200000 edges plus the self loops.

  The reference multiplies every gathered row by its edge weight and sums the rows into their destinations. The
  kernel splits the weight: three pallas_call regions scale the node features by the source's factor before each
  propagation and by the destination's factor after it, and the propagation between them is a bare gather and sum.
  On the extended reals the two are equal because the destination's factor is common to all the edges that end in
  one node and a real factor may be taken out of a finite sum of real numbers; the inputs are real by the
  precondition, and the factor `deg^(-1/2)` (or `0` where the degree is not positive) is real whatever the degree.

  `preserves`: the idealization rewrote no operation, so there is nothing to preserve.
  The frames of the two kernel programs are the generated ones; the reference's is its run with the value dropped.
-/
import proofs.«100186_j29197187678384_2_alg».proof.Defs
import proofs.«100186_j29197187678384_2_alg».proof.Proof.Gen.Kernel
import proofs.«100186_j29197187678384_2_alg».proof.Proof.Gen.Kernel.Frame
import proofs.«100186_j29197187678384_2_alg».proof.Proof.Gen.KernelIdeal
import proofs.«100186_j29197187678384_2_alg».proof.Proof.Gen.KernelIdeal.Frame
import proofs.«100186_j29197187678384_2_alg».proof.Proof.Gen.ReferenceIdeal
import proofs.«100186_j29197187678384_2_alg».proof.Proof.Gen.Pre_finite_inputs
import proofs.«100186_j29197187678384_2_alg».proof.Proof.KernelValue
import proofs.«100186_j29197187678384_2_alg».proof.Proof.RefValue
import proofs.«100186_j29197187678384_2_alg».proof.Proof.GcnInstance
import proofs.«100186_j29197187678384_2_alg».proof.Proof.FiniteInputs
import Idealize.ShloMosaic.Adequacy
import Idealize.ShloMosaic.Init

noncomputable section

namespace Cert.Proof

open Idealize.ShloMosaic Idealize.SL.Sem Idealize.ShloMosaic.ValueIdx Cert.Gcn Cert.Gcn.At

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference terminates with its arguments unchanged: its run, the value dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

theorem preserves : Cert.preserves_Kernel_KernelIdeal := trivial

/-- The column `dcol` holds `dinv` of node `n` at `(n, 0)`. -/
theorem dcol_at (m : (ℓ : Loc Cert.KernelIdeal.nD Cert.KernelIdeal.τ Cert.KernelIdeal.sig) → Buf (Elt Ideal) ℓ) (c : Dev Cert.KernelIdeal.nD)
    (n : Fin 100000) :
    Cert.KernelIdeal.HandRun.dcol m c (ix2 n 0) = Stages.dinv (F := Ideal) (m ((c.tc : Thread Cert.KernelIdeal.nD Cert.KernelIdeal.τ).loc Cert.KernelIdeal.main_arg1)) (ix1 n) := by
  unfold Cert.KernelIdeal.HandRun.dcol
  exact column_apply _ _ n
/-- The row `b1row` holds the first bias's entry `d` at `(0, d)`. -/
theorem b1row_at (m : (ℓ : Loc Cert.KernelIdeal.nD Cert.KernelIdeal.τ Cert.KernelIdeal.sig) → Buf (Elt Ideal) ℓ) (c : Dev Cert.KernelIdeal.nD)
    (d : Fin 64) :
    Cert.KernelIdeal.HandRun.b1row m c (ix2 0 d) = ((m ((c.tc : Thread Cert.KernelIdeal.nD Cert.KernelIdeal.τ).loc Cert.KernelIdeal.main_arg3)) : Cert.ReferenceIdeal.S64.Idx → EReal) (ix1 d) := by
  unfold Cert.KernelIdeal.HandRun.b1row
  exact row64_apply _ _ d
/-- The 1×1 array `b2row` holds the second bias. -/
theorem b2row_at (m : (ℓ : Loc Cert.KernelIdeal.nD Cert.KernelIdeal.τ Cert.KernelIdeal.sig) → Buf (Elt Ideal) ℓ) (c : Dev Cert.KernelIdeal.nD) :
    Cert.KernelIdeal.HandRun.b2row m c (ix2 0 0) = ((m ((c.tc : Thread Cert.KernelIdeal.nD Cert.KernelIdeal.τ).loc Cert.KernelIdeal.main_arg5)) : Cert.ReferenceIdeal.S1.Idx → EReal) (ix1 0) := by
  unfold Cert.KernelIdeal.HandRun.b2row
  exact row1_apply _ _

/-- Both programs end at the kernel's network of the (common, real) arguments, which is the reference's network. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => KStages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.HandRun.dcol m c)
      (Cert.KernelIdeal.HandRun.b1row m c) (m ((c.tc : Thread Cert.KernelIdeal.nD Cert.KernelIdeal.τ).loc Cert.KernelIdeal.main_arg4)) (Cert.KernelIdeal.HandRun.b2row m c), ?_, ?_⟩
  · exact (θ_run Cert.KernelIdeal.defs _ _).mono
      (fun r h c => ⟨(h c).1.trans (Cert.KernelIdeal.HandRun.W8_out m ρ c), (h c).2⟩)
      (Cert.KernelIdeal.HandRun.run_result (F := Ideal) m ρ)
  · refine (θ_run Cert.ReferenceIdeal.defs _ _).mono (fun r h c => ⟨(h c).1.trans ?_, (h c).2⟩)
      (Cert.ReferenceIdeal.HandRun.run (F := Ideal) m' ρ')
    rw [(hagree c).1, (hagree c).2.1, (hagree c).2.2.1, (hagree c).2.2.2.1, (hagree c).2.2.2.2.1, (hagree c).2.2.2.2.2]
    obtain ⟨hx, hw1, hb1, hw2, hb2⟩ := Cert.Proof.FiniteInputs.isReal_of_pre (hPre := Cert.Pre_finite_inputs.Gen.facts) m hpre c
    exact (Cert.Gcn.Inst.kernel_eq_reference _ _ _ _ _ _ _ _ _ (dcol_at m c) (b1row_at m c) (b2row_at m c) hx hw1 hb1 hw2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
